-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64x128 .f32) (main_arg6 : FVec F S64 .f32) (main_arg7 : FVec F S64x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S64x128 .f32 := Host.absf main_arg5
  let main_cst_6 : FVec F S_ .f32 := constant S_ .f32 0x7F800000#32
  let main_v20 : FVec F S64x128 .f32 := broadcastInDim S64x128 ![] bcast_S_S64x128 main_cst_6
  let main_v21 : IVec S64x128 1 := cmpf .olt main_v19 main_v20
  let main_c_7 : IVec S_ 1 := constantI S_ 1 1#1
  let main_v22 : IVec S_ 1 := (fun x v => Host.reduce IntOp.andi x v reducesTo_S64x128_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x128 .f32 := Host.absf main_arg7
  let main_cst_10 : FVec F S_ .f32 := constant S_ .f32 0x7F800000#32
  let main_v30 : FVec F S64x128 .f32 := broadcastInDim S64x128 ![] bcast_S_S64x128 main_cst_10
  let main_v31 : IVec S64x128 1 := cmpf .olt main_v29 main_v30
  let main_c_11 : IVec S_ 1 := constantI S_ 1 1#1
  let main_v32 : IVec S_ 1 := (fun x v => Host.reduce IntOp.andi x v reducesTo_S64x128_S_d0_1 h_S_) main_v31 main_c_11
  let main_v33 : IVec S_ 1 := andi main_v28 main_v32
  main_v33

def fn {F : FTy → Type} [FloatOps F] (main_arg0 : FVec F S50000x128 .f32) (main_arg1 : IVec S2x600000 32) (main_arg2 : FVec F S128x128 .f32) (main_arg3 : FVec F S128 .f32) (main_arg4 : FVec F S128x128 .f32) (main_arg5 : FVec F S64x128 .f32) (main_arg6 : FVec F S64 .f32) (main_arg7 : FVec F S64x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S1x600000 : Shape := ⟨2, ![1, 600000]⟩
abbrev S600000 : Shape := ⟨1, ![600000]⟩
abbrev S_ : Shape := ⟨0, ![]⟩
abbrev S50000 : Shape := ⟨1, ![50000]⟩
abbrev S600000x1 : Shape := ⟨2, ![600000, 1]⟩
abbrev S50000x1 : Shape := ⟨2, ![50000, 1]⟩
abbrev S600000x128 : Shape := ⟨2, ![600000, 128]⟩
abbrev S1x128 : Shape := ⟨2, ![1, 128]⟩
abbrev S5000x128 : Shape := ⟨2, ![5000, 128]⟩
abbrev S5000x1 : Shape := ⟨2, ![5000, 1]⟩
abbrev S128x64 : Shape := ⟨2, ![128, 64]⟩
abbrev S1x64 : Shape := ⟨2, ![1, 64]⟩
abbrev S50000x64 : Shape := ⟨2, ![50000, 64]⟩
abbrev S5000x64 : Shape := ⟨2, ![5000, 64]⟩
abbrev S5000 : Shape := ⟨1, ![5000]⟩

abbrev nBuf : Space → Nat
  | .hbm => 62
  | .vmem => 22
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S64x128, .f32⟩
  | .hbm, ⟨6, _⟩ => ⟨S64, .f32⟩
  | .hbm, ⟨7, _⟩ => ⟨S64x128, .f32⟩
  | .hbm, ⟨8, _⟩ => ⟨S1x600000, .i32⟩
  | .hbm, ⟨9, _⟩ => ⟨S600000, .i32⟩
  | .hbm, ⟨10, _⟩ => ⟨S1x600000, .i32⟩
  | .hbm, ⟨11, _⟩ => ⟨S600000, .i32⟩
  | .hbm, ⟨12, _⟩ => ⟨S_, .f32⟩
  | .hbm, ⟨13, _⟩ => ⟨S600000, .f32⟩
  | .hbm, ⟨14, _⟩ => ⟨S_, .f32⟩
  | .hbm, ⟨15, _⟩ => ⟨S50000, .f32⟩
  | .hbm, ⟨16, _⟩ => ⟨S600000x1, .i32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S50000x1, .f32⟩
  | .hbm, ⟨25, _⟩ => ⟨S50000x128, .bf16⟩
  | .hbm, ⟨26, _⟩ => ⟨S_, .i32⟩
  | .hbm, ⟨27, _⟩ => ⟨S600000, .i32⟩
  | .hbm, ⟨28, _⟩ => ⟨S600000, .i1⟩
  | .hbm, ⟨29, _⟩ => ⟨S_, .i32⟩
  | .hbm, ⟨30, _⟩ => ⟨S600000, .i32⟩
  | .hbm, ⟨31, _⟩ => ⟨S600000, .i32⟩
  | .hbm, ⟨32, _⟩ => ⟨S600000, .i32⟩
  | .hbm, ⟨33, _⟩ => ⟨S600000x1, .i32⟩
  | .hbm, ⟨34, _⟩ => ⟨S600000x128, .bf16⟩
  | .hbm, ⟨35, _⟩ => ⟨S600000x128, .f32⟩
  | .hbm, ⟨36, _⟩ => ⟨S_, .f32⟩
  | .hbm, ⟨37, _⟩ => ⟨S50000x128, .f32⟩
  | .hbm, ⟨38, _⟩ => ⟨S600000x1, .i32⟩
  | .hbm, ⟨39, _⟩ => ⟨S50000x128, .f32⟩
  | .hbm, ⟨40, _⟩ => ⟨S128x128, .f32⟩
  | .hbm, ⟨41, _⟩ => ⟨S128x128, .f32⟩
  | .hbm, ⟨42, _⟩ => ⟨S1x128, .f32⟩
  | .hbm, ⟨43, _⟩ => ⟨S50000x128, .bf16⟩
  | .hbm, ⟨44, _⟩ => ⟨S_, .i32⟩
  | .hbm, ⟨45, _⟩ => ⟨S600000, .i32⟩
  | .hbm, ⟨46, _⟩ => ⟨S600000, .i1⟩
  | .hbm, ⟨47, _⟩ => ⟨S_, .i32⟩
  | .hbm, ⟨48, _⟩ => ⟨S600000, .i32⟩
  | .hbm, ⟨49, _⟩ => ⟨S600000, .i32⟩
  | .hbm, ⟨50, _⟩ => ⟨S600000, .i32⟩
  | .hbm, ⟨51, _⟩ => ⟨S600000x1, .i32⟩
  | .hbm, ⟨52, _⟩ => ⟨S600000x128, .bf16⟩
  | .hbm, ⟨53, _⟩ => ⟨S600000x128, .f32⟩
  | .hbm, ⟨54, _⟩ => ⟨S_, .f32⟩
  | .hbm, ⟨55, _⟩ => ⟨S50000x128, .f32⟩
  | .hbm, ⟨56, _⟩ => ⟨S600000x1, .i32⟩
  | .hbm, ⟨57, _⟩ => ⟨S50000x128, .f32⟩
  | .hbm, ⟨58, _⟩ => ⟨S128x64, .f32⟩
  | .hbm, ⟨59, _⟩ => ⟨S128x64, .f32⟩
  | .hbm, ⟨60, _⟩ => ⟨S1x64, .f32⟩
  | .hbm, ⟨61, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S5000x128, .f32⟩
  | .local _ .vmem, ⟨5, _⟩ => ⟨S5000x128, .f32⟩
  | .local _ .vmem, ⟨6, _⟩ => ⟨S128x128, .f32⟩
  | .local _ .vmem, ⟨7, _⟩ => ⟨S1x128, .f32⟩
  | .local _ .vmem, ⟨8, _⟩ => ⟨S128x128, .f32⟩
  | .local _ .vmem, ⟨9, _⟩ => ⟨S5000x128, .bf16⟩
  | .local _ .vmem, ⟨10, _⟩ => ⟨S5000x128, .bf16⟩
  | .local _ .vmem, ⟨11, _⟩ => ⟨S5000x128, .f32⟩
  | .local _ .vmem, ⟨12, _⟩ => ⟨S5000x128, .f32⟩
  | .local _ .vmem, ⟨13, _⟩ => ⟨S5000x1, .f32⟩
  | .local _ .vmem, ⟨14, _⟩ => ⟨S5000x1, .f32⟩
  | .local _ .vmem, ⟨15, _⟩ => ⟨S5000x128, .bf16⟩
  | .local _ .vmem, ⟨16, _⟩ => ⟨S5000x128, .bf16⟩
  | .local _ .vmem, ⟨17, _⟩ => ⟨S128x64, .f32⟩
  | .local _ .vmem, ⟨18, _⟩ => ⟨S1x64, .f32⟩
  | .local _ .vmem, ⟨19, _⟩ => ⟨S128x64, .f32⟩
  | .local _ .vmem, ⟨20, _⟩ => ⟨S5000x64, .f32⟩
  | .local _ .vmem, ⟨21, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_c : Ref sig .tc := ⟨.hbm, 26, rfl⟩
abbrev main_v14 : Ref sig .tc := ⟨.hbm, 27, rfl⟩
abbrev main_v15 : Ref sig .tc := ⟨.hbm, 28, rfl⟩
abbrev main_c_3 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_4 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_c_5 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_7 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S_S50000 : S_.BroadcastsInDim S50000 (![] : Fin 0 → Fin S50000.rank)
  bcast_S600000_S600000x1_0 : S600000.BroadcastsInDim S600000x1 (![0] : Fin 1 → Fin S600000x1.rank)
  shapeCasts_S50000_S50000x1 : S50000.ShapeCasts S50000x1
  bitsLt_bf16_f32 : FTy.bits .bf16 < FTy.bits .f32
  bcast_S_S50000x128 : S_.BroadcastsInDim S50000x128 (![] : Fin 0 → Fin S50000x128.rank)
  transposes_S128x128_S128x128_1_0 : S128x128.Transposes [1, 0] S128x128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  packedbf16_S5000x128_S5000x128_0_0 : (Rect.unit (s := S5000x128) ![0, 0] S5000x128.size inb_S5000x128_S5000x128_0_0).PackedRows (EltTy.packing .bf16)
  transposes_S64x128_S128x64_1_0 : S64x128.Transposes [1, 0] S128x64
  shapeCasts_S64_S1x64 : S64.ShapeCasts S1x64
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  reduces_S5000x64_S5000 : S5000x64.Reduces [1] S5000
  shapeCasts_S5000_S5000x1 : S5000.ShapeCasts S5000x1
  broadcasts_S5000x1_S5000x64 : S5000x1.Broadcasts S5000x64
  inb_S5000x64_S5000x64_0_0 : ∀ a, (![0, 0] : Fin 2 → Nat) a + S5000x64.size a ≤ S5000x64.size a
  h_S5000x64 : 0 < S5000x64.numel
  scatter_S50000_S600000x1_S600000_n_0_0_1_wf : ScatterDims.WF S50000 S600000x1 S600000 [] [0] [0] 1
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S50000x1.size a
  hwx0_1 : ∀ i : grid0.Coords, EltTy.bits .f32 = 32 ∨ (Rect.block (s := S50000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S50000x128.size a
  hwx0_6 : ∀ i : grid0.Coords, EltTy.bits .bf16 = 32 ∨ (Rect.block (s := S50000x128) S5000x128.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .bf16 = 32 ∨ (Rect.block (s := S50000x128) S5000x128.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x64.size a ≤ S128x64.size a
  hwx1_3 : ∀ i : grid1.Coords, EltTy.bits .f32 = 32 ∨ (Rect.block (s := S128x64) S128x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x64.size a ≤ S128x64.size a
  hwx1_5 : ∀ i : grid1.Coords, EltTy.bits .f32 = 32 ∨ (Rect.block (s := S128x64) S128x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x64.size a ≤ S50000x64.size a
  hwx1_6 : ∀ i : grid1.Coords, EltTy.bits .f32 = 32 ∨ (Rect.block (s := S50000x64) S5000x64.size (cc1_transform_6 i) (hinb1_6 i)).WholeWords (EltTy.packing .f32)

variable [Facts₀]

def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_v24) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S5000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v25) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v27) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v28) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v39) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v28) S5000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v40) S128x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v42) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v41) S128x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v43) S5000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S50000 : Shape := ⟨1, ![50000]⟩
abbrev S50000x1 : Shape := ⟨2, ![50000, 1]⟩
abbrev S1x128 : Shape := ⟨2, ![1, 128]⟩
abbrev S128x64 : Shape := ⟨2, ![128, 64]⟩
abbrev S50000x64 : Shape := ⟨2, ![50000, 64]⟩
abbrev S1x64 : Shape := ⟨2, ![1, 64]⟩

abbrev nBuf : Space → Nat
  | .hbm => 96
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S64x128, .f32⟩
  | .hbm, ⟨6, _⟩ => ⟨S64, .f32⟩
  | .hbm, ⟨7, _⟩ => ⟨S64x128, .f32⟩
  | .hbm, ⟨8, _⟩ => ⟨S1x600000, .i32⟩
  | .hbm, ⟨9, _⟩ => ⟨S600000, .i32⟩
  | .hbm, ⟨10, _⟩ => ⟨S1x600000, .i32⟩
  | .hbm, ⟨11, _⟩ => ⟨S600000, .i32⟩
  | .hbm, ⟨12, _⟩ => ⟨S_, .i32⟩
  | .hbm, ⟨13, _⟩ => ⟨S600000, .i32⟩
  | .hbm, ⟨14, _⟩ => ⟨S600000, .i1⟩
  | .hbm, ⟨15, _⟩ => ⟨S_, .i32⟩
  | .hbm, ⟨16, _⟩ => ⟨S600000, .i32⟩
  | .hbm, ⟨17, _⟩ => ⟨S600000, .i32⟩
  | .hbm, ⟨18, _⟩ => ⟨S600000, .i32⟩
  | .hbm, ⟨19, _⟩ => ⟨S600000x1, .i32⟩
  | .hbm, ⟨20, _⟩ => ⟨S600000x128, .f32⟩
  | .hbm, ⟨21, _⟩ => ⟨S_, .f32⟩
  | .hbm, ⟨22, _⟩ => ⟨S50000x128, .f32⟩
  | .hbm, ⟨23, _⟩ => ⟨S600000x1, .i32⟩
  | .hbm, ⟨24, _⟩ => ⟨S50000x128, .f32⟩
  | .hbm, ⟨25, _⟩ => ⟨S_, .f32⟩
  | .hbm, ⟨26, _⟩ => ⟨S600000, .f32⟩
  | .hbm, ⟨27, _⟩ => ⟨S_, .f32⟩
  | .hbm, ⟨28, _⟩ => ⟨S50000, .f32⟩
  | .hbm, ⟨29, _⟩ => ⟨S600000x1, .i32⟩
  | .hbm, ⟨30, _⟩ => ⟨S50000, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S50000x1, .f32⟩
  | .hbm, ⟨35, _⟩ => ⟨S50000x128, .f32⟩
  | .hbm, ⟨36, _⟩ => ⟨S50000x128, .f32⟩
  | .hbm, ⟨37, _⟩ => ⟨S128x128, .f32⟩
  | .hbm, ⟨38, _⟩ => ⟨S50000x128, .f32⟩
  | .hbm, ⟨39, _⟩ => ⟨S1x128, .f32⟩
  | .hbm, ⟨40, _⟩ => ⟨S50000x128, .f32⟩
  | .hbm, ⟨41, _⟩ => ⟨S50000x128, .f32⟩
  | .hbm, ⟨42, _⟩ => ⟨S128x128, .f32⟩
  | .hbm, ⟨43, _⟩ => ⟨S50000x128, .f32⟩
  | .hbm, ⟨44, _⟩ => ⟨S50000x128, .f32⟩
  | .hbm, ⟨45, _⟩ => ⟨S_, .f32⟩
  | .hbm, ⟨46, _⟩ => ⟨S50000x128, .f32⟩
  | .hbm, ⟨47, _⟩ => ⟨S50000x128, .f32⟩
  | .hbm, ⟨48, _⟩ => ⟨S_, .i32⟩
  | .hbm, ⟨49, _⟩ => ⟨S600000, .i32⟩
  | .hbm, ⟨50, _⟩ => ⟨S600000, .i1⟩
  | .hbm, ⟨51, _⟩ => ⟨S_, .i32⟩
  | .hbm, ⟨52, _⟩ => ⟨S600000, .i32⟩
  | .hbm, ⟨53, _⟩ => ⟨S600000, .i32⟩
  | .hbm, ⟨54, _⟩ => ⟨S600000, .i32⟩
  | .hbm, ⟨55, _⟩ => ⟨S600000x1, .i32⟩
  | .hbm, ⟨56, _⟩ => ⟨S600000x128, .f32⟩
  | .hbm, ⟨57, _⟩ => ⟨S_, .f32⟩
  | .hbm, ⟨58, _⟩ => ⟨S50000x128, .f32⟩
  | .hbm, ⟨59, _⟩ => ⟨S600000x1, .i32⟩
  | .hbm, ⟨60, _⟩ => ⟨S50000x128, .f32⟩
  | .hbm, ⟨61, _⟩ => ⟨S_, .f32⟩
  | .hbm, ⟨62, _⟩ => ⟨S600000, .f32⟩
  | .hbm, ⟨63, _⟩ => ⟨S_, .f32⟩
  | .hbm, ⟨64, _⟩ => ⟨S50000, .f32⟩
  | .hbm, ⟨65, _⟩ => ⟨S600000x1, .i32⟩
  | .hbm, ⟨66, _⟩ => ⟨S50000, .f32⟩
  | .hbm, ⟨67, _⟩ => ⟨S_, .f32⟩
  | .hbm, ⟨68, _⟩ => ⟨S50000, .f32⟩
  | .hbm, ⟨69, _⟩ => ⟨S50000, .f32⟩
  | .hbm, ⟨70, _⟩ => ⟨S50000x1, .f32⟩
  | .hbm, ⟨71, _⟩ => ⟨S50000x128, .f32⟩
  | .hbm, ⟨72, _⟩ => ⟨S50000x128, .f32⟩
  | .hbm, ⟨73, _⟩ => ⟨S128x64, .f32⟩
  | .hbm, ⟨74, _⟩ => ⟨S50000x64, .f32⟩
  | .hbm, ⟨75, _⟩ => ⟨S1x64, .f32⟩
  | .hbm, ⟨76, _⟩ => ⟨S50000x64, .f32⟩
  | .hbm, ⟨77, _⟩ => ⟨S50000x64, .f32⟩
  | .hbm, ⟨78, _⟩ => ⟨S128x64, .f32⟩
  | .hbm, ⟨79, _⟩ => ⟨S50000x64, .f32⟩
  | .hbm, ⟨80, _⟩ => ⟨S50000x64, .f32⟩
  | .hbm, ⟨81, _⟩ => ⟨S_, .f32⟩
  | .hbm, ⟨82, _⟩ => ⟨S50000, .f32⟩
  | .hbm, ⟨83, _⟩ => ⟨S_, .f32⟩
  | .hbm, ⟨84, _⟩ => ⟨S50000, .f32⟩
  | .hbm, ⟨85, _⟩ => ⟨S50000, .f32⟩
  | .hbm, ⟨86, _⟩ => ⟨S50000x1, .f32⟩
  | .hbm, ⟨87, _⟩ => ⟨S50000x64, .f32⟩
  | .hbm, ⟨88, _⟩ => ⟨S50000x64, .f32⟩
  | .hbm, ⟨89, _⟩ => ⟨S50000x64, .f32⟩
  | .hbm, ⟨90, _⟩ => ⟨S_, .f32⟩
  | .hbm, ⟨91, _⟩ => ⟨S50000, .f32⟩
  | .hbm, ⟨92, _⟩ => ⟨S50000x1, .f32⟩
  | .hbm, ⟨93, _⟩ => ⟨S50000x1, .f32⟩
  | .hbm, ⟨94, _⟩ => ⟨S50000x64, .f32⟩
  | .hbm, ⟨95, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_call0_cst : Ref sig .tc := ⟨.hbm, 45, rfl⟩
abbrev main_call0_v0 : Ref sig .tc := ⟨.hbm, 46, rfl⟩
abbrev main_v31 : Ref sig .tc := ⟨.hbm, 47, rfl⟩
abbrev main_c_4 : Ref sig .tc := ⟨.hbm, 48, rfl⟩
abbrev main_v32 : Ref sig .tc := ⟨.hbm, 49, rfl⟩
abbrev main_v33 : Ref sig .tc := ⟨.hbm, 50, rfl⟩
abbrev main_c_5 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_6 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_7 : Ref sig .tc := ⟨.hbm, 61, rfl⟩
abbrev main_v42 : Ref sig .tc := ⟨.hbm, 62, rfl⟩
abbrev main_cst_8 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_9 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_call1_cst : Ref sig .tc := ⟨.hbm, 81, rfl⟩
abbrev main_call1_v0 : Ref sig .tc := ⟨.hbm, 82, rfl⟩
abbrev main_call1_cst_0 : Ref sig .tc := ⟨.hbm, 83, rfl⟩
abbrev main_call1_v1 : Ref sig .tc := ⟨.hbm, 84, rfl⟩
abbrev main_call1_v2 : Ref sig .tc := ⟨.hbm, 85, rfl⟩
abbrev main_call1_v3 : Ref sig .tc := ⟨.hbm, 86, rfl⟩
abbrev main_call1_v4 : Ref sig .tc := ⟨.hbm, 87, rfl⟩
abbrev main_call1_v5 : Ref sig .tc := ⟨.hbm, 88, rfl⟩
abbrev main_call1_v6 : Ref sig .tc := ⟨.hbm, 89, rfl⟩
abbrev main_call1_cst_1 : Ref sig .tc := ⟨.hbm, 90, rfl⟩
abbrev main_call1_v7 : Ref sig .tc := ⟨.hbm, 91, rfl⟩
abbrev main_call1_v8 : Ref sig .tc := ⟨.hbm, 92, rfl⟩
abbrev main_call1_v9 : Ref sig .tc := ⟨.hbm, 93, rfl⟩
abbrev main_call1_v10 : Ref sig .tc := ⟨.hbm, 94, rfl⟩
abbrev main_v59 : Ref sig .tc := ⟨.hbm, 95, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  transposes_S64x128_S128x64_1_0 : S64x128.Transposes [1, 0] S128x64
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  reducesTo_S50000x64_S50000_d1 : S50000x64.ReducesTo [1] S50000
  h_S_ : 0 < S_.numel
  bcast_S50000x1_S50000x64_0_1 : S50000x1.BroadcastsInDim S50000x64 (![0, 1] : Fin 2 → Fin S50000x64.rank)
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  scatter_S50000_S600000x1_S600000_n_0_0_1_wf : ScatterDims.WF S50000 S600000x1 S600000 [] [0] [0] 1
  dot_S50000x128_S128x128_S50000x128_1_0_0_1_n_n_wf : DotDims.WF S50000x128 S128x128 S50000x128 [1] [0] [0] [1] [] []
  dot_S50000x128_S128x64_S50000x64_1_0_0_1_n_n_wf : DotDims.WF S50000x128 S128x64 S50000x64 [1] [0] [0] [1] [] []

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.KRun.lean ====
/-
  The idealized kernel's run with its result named.

  The program is two launches among two stretches of host operations.  Walking the buffer contents through these
  four segments gives, for every buffer that is not a staging buffer, what it holds when the program returns: the
  contents `W4` obtained from the launch memory by applying the first stretch, replacing the first launch's
  arrays by what its write-backs leave, applying the second stretch, and replacing the second launch's arrays
  likewise.  The run theorem below reads the returned buffer there, beside the eight arguments, which end as
  launched; the second theorem says that the returned buffer is the second launch's output window, so what it
  holds is the fold of that launch's write-backs.
-/
import proofs.«113475_j29841432773038_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program ends, without a fault, with the returned buffer at the last
    boundary's contents and the eight arguments as launched. -/
theorem run_result : θ_run defs (onTc (τ := τ) (main (F := F))) ⟨m, fun _ => 0, ρ⟩ (fun r => ∀ c : Dev nD,
      r.2.mem ((c.tc : Thread nD τ).loc main_v43) = W4 m ρ c (Proc.devRef .tc main_v43)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v43 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

/-- The returned buffer is the second launch's output window: it ends at the fold of that launch's write-backs. -/
theorem result_eq (c : Dev nD) :
    W4 m ρ c (Proc.devRef .tc main_v43) = (dat1 (V3 m ρ) c).arrAt 6 cfg1.N :=
  W4_arr m ρ c 6

/-- The hidden-layer buffer, as the second stretch of host operations finds it, is the first launch's output
    window: the fold of that launch's write-backs. -/
theorem hidden_eq (c : Dev nD) :
    W2 m ρ c (Proc.devRef .tc main_v28) = (dat0 (V1 m ρ) c).arrAt 6 cfg0.N :=
  W2_arr m ρ c 6

end Cert.KernelIdeal.KRun

end
-- ==== Proof.LibRowForms.lean ====
/-
  Matrices and vectors read at an index through the layout operations a keep-dimensions row sum and a
  stacked weight matrix need: a vector cast to a column, a column broadcast along the rows, the sum over the
  columns of a matrix at a row, and three matrices of one shape laid side by side, read in each third.
  Stated over literal-extent index constructors (`ix1`, `ix2`), for any extents.
-/
import Idealize.ShloMosaic.Lib.Pipeline.Value
import Idealize.ShloMosaic.Lib.ValueIdx
import Idealize.ShloMosaic.Lib.ValueLayout
import Idealize.ShloMosaic.PureOps.Ideal.Laws

noncomputable section

namespace Cert.LibRowForms

open Idealize.ShloMosaic Idealize.ShloMosaic.ValueIdx
open scoped BigOperators

variable {α : Type}

/-- An `[a]` vector cast to a column `[a, 1]` reads, at `(i, u)`, the vector at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast along the rows to `[a, b]` reads, at `(p, c)`, the column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- On the extended reals, the vector unit's sum over the columns of an `[a, b]` matrix is, at row `p`, the sum
    of that row's `b` entries. -/
theorem laneSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ)
    (hacc : acc = FKind.add.neutral φ hφ) (p : Fin a) :
    multiReduction .add [1] ⟨1, ![a]⟩ src acc h hφ hacc (ix1 p) = ∑ k : Fin b, src (ix2 p k) := by
  refine (Ideal.multiReduction_add_single src acc h hφ hacc (ix1 p)).trans ?_
  refine Finset.sum_congr rfl fun k _ => congrArg src ?_
  funext c; apply Fin.ext
  match c with
  | ⟨0, _⟩ => rfl
  | ⟨1, _⟩ => rfl

/-- Three `[n, w]` matrices laid side by side into `[n, W]`: a column `q` of the first third reads the first
    matrix at that column, -/
theorem concat3_cols_first {n w W : ℕ} (A B C : (⟨2, ![n, w]⟩ : Shape).Idx → α)
    (h : Shape.Concatenates [(⟨2, ![n, w]⟩ : Shape), ⟨2, ![n, w]⟩, ⟨2, ![n, w]⟩] ⟨2, ![n, W]⟩ 1)
    (r : Fin n) (q : Fin W) (j : Fin w) (hq : q.val = j.val) :
    concatenate ⟨2, ![n, W]⟩ 1 [⟨⟨2, ![n, w]⟩, A⟩, ⟨⟨2, ![n, w]⟩, B⟩, ⟨⟨2, ![n, w]⟩, C⟩] h (ix2 r q) = A (ix2 r j) :=
  concatenate_apply_piece (t := ⟨2, ![n, W]⟩) (1 : Fin 2) [⟨⟨2, ![n, w]⟩, A⟩, ⟨⟨2, ![n, w]⟩, B⟩, ⟨⟨2, ![n, w]⟩, C⟩] h (ix2 r q) 0 (Nat.zero_lt_succ _) _ A rfl rfl 0 rfl (ix2 r j)
    (fun b hb => by
      match b with
      | ⟨0, _⟩ => rfl
      | ⟨1, _⟩ => exact absurd rfl hb)
    (by show 0 + j.val = q.val; omega)

/-- a column `w + j` of the second third the second matrix at column `j`, -/
theorem concat3_cols_second {n w W : ℕ} (A B C : (⟨2, ![n, w]⟩ : Shape).Idx → α)
    (h : Shape.Concatenates [(⟨2, ![n, w]⟩ : Shape), ⟨2, ![n, w]⟩, ⟨2, ![n, w]⟩] ⟨2, ![n, W]⟩ 1)
    (r : Fin n) (q : Fin W) (j : Fin w) (hq : q.val = w + j.val) :
    concatenate ⟨2, ![n, W]⟩ 1 [⟨⟨2, ![n, w]⟩, A⟩, ⟨⟨2, ![n, w]⟩, B⟩, ⟨⟨2, ![n, w]⟩, C⟩] h (ix2 r q) = B (ix2 r j) :=
  concatenate_apply_piece (t := ⟨2, ![n, W]⟩) (1 : Fin 2) [⟨⟨2, ![n, w]⟩, A⟩, ⟨⟨2, ![n, w]⟩, B⟩, ⟨⟨2, ![n, w]⟩, C⟩] h (ix2 r q) 1 (Nat.succ_lt_succ (Nat.zero_lt_succ _)) _ B rfl rfl w (by simp) (ix2 r j)
    (fun b hb => by
      match b with
      | ⟨0, _⟩ => rfl
      | ⟨1, _⟩ => exact absurd rfl hb)
    (by show w + j.val = q.val; omega)

/-- and a column `2 w + j` of the last third the third matrix at column `j`. -/
theorem concat3_cols_third {n w W : ℕ} (A B C : (⟨2, ![n, w]⟩ : Shape).Idx → α)
    (h : Shape.Concatenates [(⟨2, ![n, w]⟩ : Shape), ⟨2, ![n, w]⟩, ⟨2, ![n, w]⟩] ⟨2, ![n, W]⟩ 1)
    (r : Fin n) (q : Fin W) (j : Fin w) (hq : q.val = w + w + j.val) :
    concatenate ⟨2, ![n, W]⟩ 1 [⟨⟨2, ![n, w]⟩, A⟩, ⟨⟨2, ![n, w]⟩, B⟩, ⟨⟨2, ![n, w]⟩, C⟩] h (ix2 r q) = C (ix2 r j) :=
  concatenate_apply_piece (t := ⟨2, ![n, W]⟩) (1 : Fin 2) [⟨⟨2, ![n, w]⟩, A⟩, ⟨⟨2, ![n, w]⟩, B⟩, ⟨⟨2, ![n, w]⟩, C⟩] h (ix2 r q) 2 (Nat.succ_lt_succ (Nat.succ_lt_succ (Nat.zero_lt_succ _))) _ C rfl rfl (w + w) (by simp) (ix2 r j)
    (fun b hb => by
      match b with
      | ⟨0, _⟩ => rfl
      | ⟨1, _⟩ => exact absurd rfl hb)
    (by show w + w + j.val = q.val; omega)

end Cert.LibRowForms

end
-- ==== Proof.KHost.lean ====
/-
  What the two launches find in their arrays, as terms of the program's arguments.

  Before the first launch the host computes, from the edge list, the destination of every edge as a column of
  scatter indices and the source of every edge (a negative source wrapped once by the node count) as a column of
  gather indices; the in-degree of every node as a scatter-add of ones, clamped below by one, and its reciprocal
  as a column; the sum over every node's in-edges of the source's feature row, as a gather followed by a
  scatter-add into zeros (the two changes of float format around the gather are the identity on the extended
  reals); and the transposed weight matrices and the bias as a row.  Between the launches it computes the same sum
  of the hidden rows, and the second layer's transposed weights and bias row.  Each lemma below reads one buffer at
  a segment boundary back to such a term, by walking the stretch of host operations.
-/
import proofs.«113475_j29841432773038_2_alg».proof.Proof.Gen.KernelIdeal.Frame
import Idealize.ShloMosaic.Lib.StableHlo.Run
import Idealize.ShloMosaic.PureOps.Ideal
import Idealize.ShloMosaic.Lib.ValueIdx
import proofs.«113475_j29841432773038_2_alg».proof.Proof.LibRowForms

set_option maxRecDepth 16384

noncomputable section

namespace Cert.KernelIdeal.KHost

open Cert.KernelIdeal Cert.KernelIdeal.Gen
open Idealize.ShloMosaic Idealize.ShloMosaic.TcCoe Idealize.ShloMosaic.StableHlo
open Idealize.SL.Sem

/-! ## The terms -/

/-- The sources of the edges: row 0 of the edge list. -/
def srcVec (e : IVec S2x600000 32) : IVec S600000 32 :=
  shapeCast _ (extractStridedSlice S1x600000 ![0, 0] e slices_S2x600000_S1x600000_0_0) shapeCasts_S1x600000_S600000
/-- The destinations of the edges: row 1 of the edge list. -/
def dstVec (e : IVec S2x600000 32) : IVec S600000 32 :=
  shapeCast _ (extractStridedSlice S1x600000 ![1, 0] e slices_S2x600000_S1x600000_1_0) shapeCasts_S1x600000_S600000
/-- The gather indices: each source, a negative one wrapped once by the node count, as a column. -/
def srcIdx (e : IVec S2x600000 32) : IVec S600000x1 32 :=
  broadcastInDim S600000x1 ![0] bcast_S600000_S600000x1_0
    (select (cmpi .slt (srcVec e) (broadcastInDim S600000 ![] bcast_S_S600000 (constantI S_ 32 0#32)))
      (addi (srcVec e) (broadcastInDim S600000 ![] bcast_S_S600000 (constantI S_ 32 50000#32))) (srcVec e))
/-- The scatter indices: each destination, as a column. -/
def dstIdx (e : IVec S2x600000 32) : IVec S600000x1 32 :=
  broadcastInDim S600000x1 ![0] bcast_S600000_S600000x1_0 (dstVec e)

/-- The sum, over every node's in-edges, of the source's row of `feat`. -/
def agg (e : IVec S2x600000 32) (feat : S50000x128.Idx → EReal) : S50000x128.Idx → EReal :=
  Host.scatterAdd (F := Ideal) (φ := .f32) scatter_S50000x128_S600000x1_S600000x128_1_0_0_1
    (broadcastInDim S50000x128 ![] bcast_S_S50000x128 (constant (F := Ideal) S_ .f32 0x00000000#32)) (dstIdx e)
    (Host.gather gather_S50000x128_S600000x1_S600000x128_1_0_n_n_0_1_1128 feat (srcIdx e))

/-- Every node's in-degree, clamped below by one. -/
def degMax (e : IVec S2x600000 32) : S50000.Idx → EReal :=
  maximumf (F := Ideal) (φ := .f32)
    (Host.scatterAdd (F := Ideal) (φ := .f32) scatter_S50000_S600000x1_S600000_n_0_0_1
      (broadcastInDim S50000 ![] bcast_S_S50000 (constant (F := Ideal) S_ .f32 0x00000000#32)) (dstIdx e)
      (broadcastInDim S600000 ![] bcast_S_S600000 (constant (F := Ideal) S_ .f32 0x3F800000#32)))
    (broadcastInDim S50000 ![] bcast_S_S50000 (constant (F := Ideal) S_ .f32 0x3F800000#32))

/-- The reciprocal of the clamped in-degree, as a column. -/
def invCol (e : IVec S2x600000 32) : S50000x1.Idx → EReal :=
  shapeCast S50000x1
    (Host.divf (F := Ideal) (φ := .f32) (broadcastInDim S50000 ![] bcast_S_S50000 (constant (F := Ideal) S_ .f32 0x3F800000#32)) (degMax e))
    shapeCasts_S50000_S50000x1

/-- The splat of the one pattern reads the pattern's value at every node. -/
theorem ones_apply (i : S50000.Idx) :
    (broadcastInDim S50000 ![] bcast_S_S50000 (constant (F := Ideal) S_ .f32 0x3F800000#32) : S50000.Idx → EReal) i
      = Ideal.ofBits .f32 0x3F800000#32 := rfl

/-- The reciprocal column read at node `r`: the one pattern's value divided by the node's clamped in-degree. -/
theorem invCol_apply (e : IVec S2x600000 32) (r : Fin 50000) :
    invCol e (Idealize.ShloMosaic.ValueIdx.ix2 r (0 : Fin 1))
      = Ideal.div (Ideal.ofBits .f32 0x3F800000#32) (degMax e (Idealize.ShloMosaic.ValueIdx.ix1 r)) := by
  unfold invCol
  rw [Cert.LibRowForms.shapeCast_a_a1_apply]
  show FloatOps.hostDivf (F := Ideal) (φ := .f32)
      ((broadcastInDim S50000 ![] bcast_S_S50000 (constant (F := Ideal) S_ .f32 0x3F800000#32) : S50000.Idx → EReal)
        (Idealize.ShloMosaic.ValueIdx.ix1 r))
      (degMax e (Idealize.ShloMosaic.ValueIdx.ix1 r)) = _
  rw [Ideal.hostDivf_def, ones_apply]

variable (m : (ℓ : Loc nD τ sig) → Buf (Elt Ideal) ℓ) (ρ : Dev nD → PrngReg)

/-- The edge list as launched. -/
abbrev E (c : Dev nD) : IVec S2x600000 32 := m ((c : Thread nD τ).loc main_arg1)

/-! ## The first stretch: what launch 0 finds -/

theorem w1_v1 (c : Dev nD) : (W1 m ρ c (Proc.devRef .tc main_v1) : IVec S600000 32) = srcVec (E m c) := by
  dsimp only [W1, hostOps0]; after_results_simp; all_goals rfl
theorem w1_v3 (c : Dev nD) : (W1 m ρ c (Proc.devRef .tc main_v3) : IVec S600000 32) = dstVec (E m c) := by
  dsimp only [W1, hostOps0]; after_results_simp; all_goals rfl
theorem v1_v24 (c : Dev nD) :
    (V1 m ρ c main_v24 : S50000x128.Idx → EReal) = agg (E m c) (m ((c : Thread nD τ).loc main_arg0)) := by
  dsimp only [V1, W1, hostOps0]; after_results_simp; all_goals rfl
theorem v1_v12 (c : Dev nD) : (V1 m ρ c main_v12 : S50000x1.Idx → EReal) = invCol (E m c) := by
  dsimp only [V1, W1, hostOps0]; after_results_simp; all_goals rfl
theorem v1_arg0 (c : Dev nD) : (V1 m ρ c main_arg0 : S50000x128.Idx → EReal) = m ((c : Thread nD τ).loc main_arg0) := by
  dsimp only [V1, W1, hostOps0]; after_results_simp; all_goals rfl
theorem v1_v25 (c : Dev nD) : (V1 m ρ c main_v25 : S128x128.Idx → EReal)
    = transpose S128x128 [1, 0] (m ((c : Thread nD τ).loc main_arg2)) transposes_S128x128_S128x128_1_0 := by
  dsimp only [V1, W1, hostOps0]; after_results_simp; all_goals rfl
theorem v1_v26 (c : Dev nD) : (V1 m ρ c main_v26 : S128x128.Idx → EReal)
    = transpose S128x128 [1, 0] (m ((c : Thread nD τ).loc main_arg4)) transposes_S128x128_S128x128_1_0 := by
  dsimp only [V1, W1, hostOps0]; after_results_simp; all_goals rfl
theorem v1_v27 (c : Dev nD) : (V1 m ρ c main_v27 : S1x128.Idx → EReal)
    = shapeCast S1x128 (m ((c : Thread nD τ).loc main_arg3)) shapeCasts_S128_S1x128 := by
  dsimp only [V1, W1, hostOps0]; after_results_simp; all_goals rfl
theorem w1_arg5 (c : Dev nD) : W1 m ρ c (Proc.devRef .tc main_arg5) = m ((c : Thread nD τ).loc main_arg5) := by
  dsimp only [W1, hostOps0]; after_results_simp; all_goals rfl
theorem w1_arg6 (c : Dev nD) : W1 m ρ c (Proc.devRef .tc main_arg6) = m ((c : Thread nD τ).loc main_arg6) := by
  dsimp only [W1, hostOps0]; after_results_simp; all_goals rfl
theorem w1_arg7 (c : Dev nD) : W1 m ρ c (Proc.devRef .tc main_arg7) = m ((c : Thread nD τ).loc main_arg7) := by
  dsimp only [W1, hostOps0]; after_results_simp; all_goals rfl

/-! ## Across launch 0: buffers it does not write keep their contents -/

theorem w2_v1 (c : Dev nD) : (W2 m ρ c (Proc.devRef .tc main_v1) : IVec S600000 32) = srcVec (E m c) :=
  (W2_of_ne m ρ c main_v1 (by decide)).trans (w1_v1 m ρ c)
theorem w2_v3 (c : Dev nD) : (W2 m ρ c (Proc.devRef .tc main_v3) : IVec S600000 32) = dstVec (E m c) :=
  (W2_of_ne m ρ c main_v3 (by decide)).trans (w1_v3 m ρ c)
theorem w2_arg5 (c : Dev nD) : W2 m ρ c (Proc.devRef .tc main_arg5) = m ((c : Thread nD τ).loc main_arg5) :=
  (W2_of_ne m ρ c main_arg5 (by decide)).trans (w1_arg5 m ρ c)
theorem w2_arg6 (c : Dev nD) : W2 m ρ c (Proc.devRef .tc main_arg6) = m ((c : Thread nD τ).loc main_arg6) :=
  (W2_of_ne m ρ c main_arg6 (by decide)).trans (w1_arg6 m ρ c)
theorem w2_arg7 (c : Dev nD) : W2 m ρ c (Proc.devRef .tc main_arg7) = m ((c : Thread nD τ).loc main_arg7) :=
  (W2_of_ne m ρ c main_arg7 (by decide)).trans (w1_arg7 m ρ c)
/-- The reciprocal in-degrees are an input of launch 0: it leaves them as it found them. -/
theorem w2_v12 (c : Dev nD) : (W2 m ρ c (Proc.devRef .tc main_v12) : S50000x1.Idx → EReal) = invCol (E m c) :=
  ((W2_arr m ρ c 1).trans (((dat0 (V1 m ρ) c).arrAt_in 1 rfl _).trans (A_eq0 (V1 m ρ) c 1))).trans (v1_v12 m ρ c)

/-! ## The second stretch: what launch 1 finds -/

theorem v3_v39 (c : Dev nD) :
    (V3 m ρ c main_v39 : S50000x128.Idx → EReal) = agg (E m c) (W2 m ρ c (Proc.devRef .tc main_v28)) := by
  dsimp only [V3, W3, hostOps1]; after_results_simp
  rw [w2_v1, w2_v3]; all_goals rfl
theorem v3_v12 (c : Dev nD) : (V3 m ρ c main_v12 : S50000x1.Idx → EReal) = invCol (E m c) := by
  dsimp only [V3, W3, hostOps1]; after_results_simp
  exact w2_v12 m ρ c
theorem v3_v28 (c : Dev nD) : V3 m ρ c main_v28 = W2 m ρ c (Proc.devRef .tc main_v28) := by
  dsimp only [V3, W3, hostOps1]; after_results_simp; all_goals rfl
theorem v3_v40 (c : Dev nD) : (V3 m ρ c main_v40 : S128x64.Idx → EReal)
    = transpose S128x64 [1, 0] (m ((c : Thread nD τ).loc main_arg5)) transposes_S64x128_S128x64_1_0 := by
  dsimp only [V3, W3, hostOps1]; after_results_simp
  rw [w2_arg5]; all_goals rfl
theorem v3_v41 (c : Dev nD) : (V3 m ρ c main_v41 : S128x64.Idx → EReal)
    = transpose S128x64 [1, 0] (m ((c : Thread nD τ).loc main_arg7)) transposes_S64x128_S128x64_1_0 := by
  dsimp only [V3, W3, hostOps1]; after_results_simp
  rw [w2_arg7]; all_goals rfl
theorem v3_v42 (c : Dev nD) : (V3 m ρ c main_v42 : S1x64.Idx → EReal)
    = shapeCast S1x64 (m ((c : Thread nD τ).loc main_arg6)) shapeCasts_S64_S1x64 := by
  dsimp only [V3, W3, hostOps1]; after_results_simp
  rw [w2_arg6]; all_goals rfl

end Cert.KernelIdeal.KHost

end
-- ==== Proof.Sage.lean ====
/-
  A two-layer mean-aggregating graph convolution, stated entry by entry on the extended reals.

  One step of the network takes, for a node `r`, the sum `a r` of its in-neighbours' feature rows scaled by the
  reciprocal `s r` of its in-degree (at least one), multiplies that mean row by a weight matrix, adds a bias row,
  and adds the node's own row times a second weight matrix.  The hidden layer clamps the result at zero from
  below; the output layer subtracts from every entry of a row the row's maximum and then the logarithm of the sum
  of the exponentials of those differences.

  The functions below say this for matrices of any extents, so that the same definition reads a block of rows and
  the whole array.  Two facts are proved: the scaling by a reciprocal is the quotient whenever the divisor is not
  zero (on the extended reals too, where an infinite divisor has reciprocal zero), so a sum scaled by
  `1 / max n 1` is the sum divided by `max n 1` for every `n`; and an entry of either layer depends only on
  its own row of the row-indexed operands, which is what lets a block of rows be computed from the blocks alone.
-/
import Idealize.ShloMosaic.PureOps.Ideal
import Idealize.ShloMosaic.PureOps.Ideal.Laws
import Idealize.ShloMosaic.Lib.ValueIdx

noncomputable section

namespace Cert.Sage

open Idealize.ShloMosaic Idealize.ShloMosaic.ValueIdx
open scoped BigOperators

/-- A matrix of extended reals with `n` rows and `d` columns. -/
abbrev Mat (n d : ℕ) : Type := (⟨2, ![n, d]⟩ : Shape).Idx → EReal

/-! ## The two constants that matter -/

/-- The single-precision pattern of `1.0` denotes the extended real `1`. -/
theorem one_pattern : Ideal.ofBits .f32 0x3F800000#32 = 1 := by
  simp [Ideal.ofBits, Ideal.ieee, -EReal.coe_mul]; norm_num

/-- Scaling by the reciprocal of a nonzero divisor is dividing by it, for every numerator and every nonzero
    divisor of the extended reals: both are the product with the divisor's inverse. -/
theorem mul_recip (a c : EReal) (hc : c ≠ 0) : a * Ideal.div 1 c = Ideal.div a c := by
  unfold Ideal.div
  rw [if_neg hc, if_neg hc, one_mul]

/-- A count clamped below by one is never zero. -/
theorem max_one_ne_zero (n : EReal) : max n 1 ≠ 0 :=
  ne_of_gt (lt_of_lt_of_le zero_lt_one (le_max_right n 1))

/-- A sum scaled by the reciprocal of the clamped in-degree is the sum divided by the clamped in-degree. -/
theorem mean_forms (a n : EReal) :
    a * Ideal.div (Ideal.ofBits .f32 0x3F800000#32) (max n (Ideal.ofBits .f32 0x3F800000#32))
      = Ideal.div a (max n (Ideal.ofBits .f32 0x3F800000#32)) := by
  rw [one_pattern]
  exact mul_recip a _ (max_one_ne_zero n)

/-! ## One entry of a step -/

/-- The mean row `s` against a column `wl` of the neighbour weights, plus the bias entry `b`, plus the node's own
    row `x` against a column `wr` of the self weights. -/
def lin {d : ℕ} (s x wl wr : Fin d → EReal) (b : EReal) : EReal :=
  (∑ k, s k * wl k + b) + ∑ k, x k * wr k

/-- Clamping at zero from below; the zero is spelt as its single-precision pattern. -/
def relu0 (v : EReal) : EReal := max v (Ideal.ofBits .f32 0x00000000#32)

/-- The maximum of a row, folded from minus infinity (spelt as its single-precision pattern). -/
def rowMax {o : ℕ} (z : Fin o → EReal) : EReal :=
  (Finset.univ : Finset (Fin o)).fold max (Ideal.ofBits .f32 0xFF800000#32) z

/-- The logarithm of the soft maximum of a row at position `j`: the entry less the row's maximum, less the
    logarithm of the sum of the exponentials of the entries less the maximum. -/
def lsm {o : ℕ} (z : Fin o → EReal) (j : Fin o) : EReal :=
  (z j - rowMax z) - Ideal.log (∑ j', Ideal.exp (z j' - rowMax z))

/-- Folding `max` from a start value gives at least the start value, so clamping the fold below by the start value
    changes nothing. -/
theorem max_start_fold {o : ℕ} (b : EReal) (z : Fin o → EReal) :
    max b ((Finset.univ : Finset (Fin o)).fold max b z) = (Finset.univ : Finset (Fin o)).fold max b z :=
  max_eq_right ((Finset.le_fold_max b).mpr (Or.inl le_rfl))

/-! ## The layers over matrices -/

variable {n d h : ℕ}

/-- The logits of one step: entry `(r, q)` from row `r` of the neighbour sums `A` scaled by `s r`, row `r` of the
    features `X`, column `q` of the two weight matrices (stored input-major) and entry `q` of the bias. -/
def logits (A : Mat n d) (s : Fin n → EReal) (X : Mat n d) (Wl Wr : Mat d h) (b : Fin h → EReal)
    (r : Fin n) (q : Fin h) : EReal :=
  lin (fun k => A (ix2 r k) * s r) (fun k => X (ix2 r k)) (fun k => Wl (ix2 k q)) (fun k => Wr (ix2 k q)) (b q)

/-- The hidden layer: the logits clamped at zero. -/
def hidden (A : Mat n d) (s : Fin n → EReal) (X : Mat n d) (Wl Wr : Mat d h) (b : Fin h → EReal) : Mat n h :=
  fun i => relu0 (logits A s X Wl Wr b (i 0) (i 1))

/-- The output layer: the logarithm of the soft maximum along each row of the logits. -/
def output (A : Mat n d) (s : Fin n → EReal) (X : Mat n d) (Wl Wr : Mat d h) (b : Fin h → EReal) : Mat n h :=
  fun i => lsm (fun j => logits A s X Wl Wr b (i 0) j) (i 1)

/-- An entry of the logits reads only its own row of the row-indexed operands: two sets of operands that agree
    on that row (the second read at row `r'`) and share the weights and the bias give the same entry. -/
theorem logits_row {n' : ℕ} (A : Mat n d) (s : Fin n → EReal) (X : Mat n d) (A' : Mat n' d) (s' : Fin n' → EReal)
    (X' : Mat n' d) (Wl Wr : Mat d h) (b : Fin h → EReal) (r : Fin n) (r' : Fin n')
    (hA : ∀ k, A (ix2 r k) = A' (ix2 r' k)) (hs : s r = s' r') (hX : ∀ k, X (ix2 r k) = X' (ix2 r' k)) (q : Fin h) :
    logits A s X Wl Wr b r q = logits A' s' X' Wl Wr b r' q := by
  unfold logits
  simp only [hA, hs, hX]

/-- An entry of the hidden layer taken on a block of rows is the entry of the hidden layer taken on the whole
    arrays, when row `p` of the block's row-indexed operands is row `r` of the arrays' and the weights and the bias
    are the same. -/
theorem hidden_block {nb : ℕ} (A' : Mat nb d) (s' : Fin nb → EReal) (X' : Mat nb d) (Wl' Wr' : Mat d h) (b' : Fin h → EReal)
    (A : Mat n d) (s : Fin n → EReal) (X : Mat n d) (Wl Wr : Mat d h) (b : Fin h → EReal)
    (p : Fin nb) (r : Fin n) (q : Fin h)
    (hA : ∀ k, A' (ix2 p k) = A (ix2 r k)) (hs : s' p = s r) (hX : ∀ k, X' (ix2 p k) = X (ix2 r k))
    (hWl : ∀ k q', Wl' (ix2 k q') = Wl (ix2 k q')) (hWr : ∀ k q', Wr' (ix2 k q') = Wr (ix2 k q'))
    (hb : ∀ q', b' q' = b q') :
    hidden A' s' X' Wl' Wr' b' (ix2 p q) = hidden A s X Wl Wr b (ix2 r q) := by
  show relu0 (logits A' s' X' Wl' Wr' b' p q) = relu0 (logits A s X Wl Wr b r q)
  unfold logits
  simp only [hA, hs, hX, hWl, hWr, hb]

/-- The same for the output layer: the whole row of logits is the same, so its soft maximum is. -/
theorem output_block {nb : ℕ} (A' : Mat nb d) (s' : Fin nb → EReal) (X' : Mat nb d) (Wl' Wr' : Mat d h) (b' : Fin h → EReal)
    (A : Mat n d) (s : Fin n → EReal) (X : Mat n d) (Wl Wr : Mat d h) (b : Fin h → EReal)
    (p : Fin nb) (r : Fin n) (q : Fin h)
    (hA : ∀ k, A' (ix2 p k) = A (ix2 r k)) (hs : s' p = s r) (hX : ∀ k, X' (ix2 p k) = X (ix2 r k))
    (hWl : ∀ k q', Wl' (ix2 k q') = Wl (ix2 k q')) (hWr : ∀ k q', Wr' (ix2 k q') = Wr (ix2 k q'))
    (hb : ∀ q', b' q' = b q') :
    output A' s' X' Wl' Wr' b' (ix2 p q) = output A s X Wl Wr b (ix2 r q) := by
  show lsm (fun j => logits A' s' X' Wl' Wr' b' p j) q = lsm (fun j => logits A s X Wl Wr b r j) q
  unfold logits
  simp only [hA, hs, hX, hWl, hWr, hb]

end Cert.Sage

end
-- ==== Proof.KPay.lean ====
/-
  The arithmetic of the two launches' bodies, read entry by entry on the extended reals.

  Each body loads a block of 5000 rows of the neighbour sums, the matching 5000 reciprocal in-degrees as a column,
  the same 5000 rows of the node features, the two weight matrices (stored input-major) and the bias as one row,
  and stores one block.  On the extended reals every change of float format is the identity, the matrix unit's
  product into a zero accumulator is the plain sum of products, the lane reductions are the fold of `max` from
  minus infinity and the plain sum, and the column and row broadcasts read their one column or row.  So the stored
  block is the hidden layer, respectively the output layer, of the specification, taken on the loaded blocks.
-/
import proofs.«113475_j29841432773038_2_alg».proof.Proof.Gen.KernelIdeal.Skeleton
import proofs.«113475_j29841432773038_2_alg».proof.Proof.Sage
import proofs.«113475_j29841432773038_2_alg».proof.Proof.LibRowForms
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.KPay

open Cert.KernelIdeal Cert.KernelIdeal.Gen
open Idealize.ShloMosaic Idealize.ShloMosaic.ValueIdx Cert.LibRowForms
open scoped BigOperators

/-- The first coordinate of the left operand's index under this product's dimension numbers is the output row. -/
theorem mm_hidden_lhs0 (i : S5000x128.Idx) (z : dot_S5000x128_S128x128_S5000x128_1_0_0_1_n_n.contr.Idx) : (dot_S5000x128_S128x128_S5000x128_1_0_0_1_n_n.lhsIdx i z 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- The second coordinate of the right operand's index is the output column. -/
theorem mm_hidden_rhs1 (i : S5000x128.Idx) (z : dot_S5000x128_S128x128_S5000x128_1_0_0_1_n_n.contr.Idx) : (dot_S5000x128_S128x128_S5000x128_1_0_0_1_n_n.rhsIdx i z 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl
/-- The matrix unit's product into a zero accumulator, read at `(p, q)` on the extended reals: row `p` of the left
    operand against column `q` of the right one. -/
theorem mm_hidden {φ₁ φ₂ : FTy} (L : FVec Ideal S5000x128 φ₁) (R : FVec Ideal S128x128 φ₂) (p : Fin 5000) (q : Fin 128) :
    matmul dot_S5000x128_S128x128_S5000x128_1_0_0_1_n_n none L R (constant S5000x128 .f32 0x00000000#32) (ix2 p q)
      = ∑ k : Fin 128, L (ix2 p k) * R (ix2 k q) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact mm_hidden_lhs0 _ _
    | ⟨1, _⟩ => exact (dot_S5000x128_S128x128_S5000x128_1_0_0_1_n_n.lhsIdx_val_of_single rfl _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (dot_S5000x128_S128x128_S5000x128_1_0_0_1_n_n.rhsIdx_val_of_single rfl _ _).trans hk
    | ⟨1, _⟩ => exact mm_hidden_rhs1 _ _)
  rw [el, er]

/-- The first coordinate of the left operand's index under this product's dimension numbers is the output row. -/
theorem mm_output_lhs0 (i : S5000x64.Idx) (z : dot_S5000x128_S128x64_S5000x64_1_0_0_1_n_n.contr.Idx) : (dot_S5000x128_S128x64_S5000x64_1_0_0_1_n_n.lhsIdx i z 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
/-- The second coordinate of the right operand's index is the output column. -/
theorem mm_output_rhs1 (i : S5000x64.Idx) (z : dot_S5000x128_S128x64_S5000x64_1_0_0_1_n_n.contr.Idx) : (dot_S5000x128_S128x64_S5000x64_1_0_0_1_n_n.rhsIdx i z 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl
/-- The matrix unit's product into a zero accumulator, read at `(p, q)` on the extended reals: row `p` of the left
    operand against column `q` of the right one. -/
theorem mm_output {φ₁ φ₂ : FTy} (L : FVec Ideal S5000x128 φ₁) (R : FVec Ideal S128x64 φ₂) (p : Fin 5000) (q : Fin 64) :
    matmul dot_S5000x128_S128x64_S5000x64_1_0_0_1_n_n none L R (constant S5000x64 .f32 0x00000000#32) (ix2 p q)
      = ∑ k : Fin 128, L (ix2 p k) * R (ix2 k q) := by
  simp only [matmul]
  rw [Ideal.matmul_constant_zero_apply, ← Equiv.sum_comp (contrEquiv1 dot_S5000x128_S128x64_S5000x64_1_0_0_1_n_n 128 rfl rfl).symm]
  refine Finset.sum_congr rfl fun k _ => ?_
  have hk := contrEquiv1_symm_val dot_S5000x128_S128x64_S5000x64_1_0_0_1_n_n 128 rfl rfl k
  have el : dot_S5000x128_S128x64_S5000x64_1_0_0_1_n_n.lhsIdx (ix2 p q) ((contrEquiv1 dot_S5000x128_S128x64_S5000x64_1_0_0_1_n_n 128 rfl rfl).symm k) = ix2 p k := funext fun a => Fin.ext (by
    match a with
    | ⟨0, _⟩ => exact mm_output_lhs0 _ _
    | ⟨1, _⟩ => exact (dot_S5000x128_S128x64_S5000x64_1_0_0_1_n_n.lhsIdx_val_of_single rfl _ _).trans hk)
  have er : dot_S5000x128_S128x64_S5000x64_1_0_0_1_n_n.rhsIdx (ix2 p q) ((contrEquiv1 dot_S5000x128_S128x64_S5000x64_1_0_0_1_n_n 128 rfl rfl).symm k) = ix2 k q := funext fun a => Fin.ext (by
    match a with
    | ⟨0, _⟩ => exact (dot_S5000x128_S128x64_S5000x64_1_0_0_1_n_n.rhsIdx_val_of_single rfl _ _).trans hk
    | ⟨1, _⟩ => exact mm_output_rhs1 _ _)
  rw [el, er]

/-- The first body's stored block is the hidden layer of its loaded blocks. -/
theorem pay_hidden (x0 : Vec Ideal S5000x128 .f32) (x1 : Vec Ideal S5000x1 .f32) (x2 : Vec Ideal S5000x128 .f32)
    (x3 x5 : Vec Ideal S128x128 .f32) (x4 : Vec Ideal S1x128 .f32) :
    k0_pay1 x0 x1 x2 x3 x5 x4
      = Cert.Sage.hidden (n := 5000) (d := 128) (h := 128) x0 (fun p => x1 (ix2 p (0 : Fin 1))) x2 x3 x5 (fun q => x4 (ix2 (0 : Fin 1) q)) := by
  funext j
  obtain ⟨p, q, rfl⟩ : ∃ (p : Fin 5000) (q : Fin 128), j = ix2 p q := ⟨j 0, j 1, eq_ix2 j⟩
  unfold k0_pay1
  simp only [truncf_apply, maximumf_apply, addf_apply, broadcast_apply]
  rw [mm_hidden, mm_hidden]
  simp only [truncf_apply, mulf_apply, shapeCast_self, broadcastTo_a1_ab_apply, broadcastTo_1b_ab_apply]
  rfl

/-- The vector unit's maximum over the columns of an `[a, b]` matrix is, at row `p`, the fold of `max` from the
    accumulator's value over that row's `b` entries. -/
theorem laneMax_apply {a b : ℕ} {φ : FTy} (src : FVec Ideal ⟨2, ![a, b]⟩ φ) (acc : BitVec φ.bits)
    (h : (⟨2, ![a, b]⟩ : Shape).Reduces [1] ⟨1, ![a]⟩) (hφ : FKind.Formats φ)
    (hacc : acc = FKind.maximumf.neutral φ hφ) (p : Fin a) :
    multiReduction .maximumf [1] ⟨1, ![a]⟩ src acc h hφ hacc (ix1 p)
      = (Finset.univ : Finset (Fin b)).fold max (FloatOps.ofBits φ acc) (fun k => src (ix2 p k)) := by
  refine (Ideal.multiReduction_maximumf_single src acc h hφ hacc (ix1 p)).trans ?_
  refine congrArg (fun f => (Finset.univ : Finset (Fin b)).fold max (FloatOps.ofBits φ acc) f) ?_
  funext k
  refine congrArg src ?_
  funext c; apply Fin.ext
  match c with
  | ⟨0, _⟩ => rfl
  | ⟨1, _⟩ => rfl

/-- The second body's logits block: the two products and the bias row, before the row-wise normalisation. -/
def zblk (x0 : Vec Ideal S5000x128 .f32) (x1 : Vec Ideal S5000x1 .f32) (x2 : Vec Ideal S5000x128 .bf16)
    (x3 x5 : Vec Ideal S128x64 .f32) (x4 : Vec Ideal S1x64 .f32) : FVec Ideal S5000x64 .f32 :=
  addf (addf
      (matmul dot_S5000x128_S128x64_S5000x64_1_0_0_1_n_n none
        (truncf .bf16 (mulf (shapeCast S5000x128 x0 shapeCasts_S5000x128_S5000x128)
          (broadcastTo S5000x128 (shapeCast S5000x1 x1 shapeCasts_S5000x1_S5000x1) broadcasts_S5000x1_S5000x128)) bitsLt_bf16_f32)
        (truncf .bf16 (shapeCast S128x64 x3 shapeCasts_S128x64_S128x64) bitsLt_bf16_f32)
        (constant S5000x64 .f32 0x00000000#32))
      (broadcastTo S5000x64 (shapeCast S1x64 x4 shapeCasts_S1x64_S1x64) broadcasts_S1x64_S5000x64))
    (matmul dot_S5000x128_S128x64_S5000x64_1_0_0_1_n_n none
      (shapeCast S5000x128 x2 shapeCasts_S5000x128_S5000x128 : FVec Ideal S5000x128 .bf16)
      (truncf .bf16 (shapeCast S128x64 x5 shapeCasts_S128x64_S128x64) bitsLt_bf16_f32)
      (constant S5000x64 .f32 0x00000000#32))

/-- The row-wise normalisation the second body applies to its logits block `Z`: subtract each row's maximum, then the
    logarithm of the row's sum of exponentials of those differences. -/
def tail (Z : FVec Ideal S5000x64 .f32) : FVec Ideal S5000x64 .f32 :=
  subf
    (subf Z (broadcastTo S5000x64 (shapeCast S5000x1
      (multiReduction .maximumf [1] S5000 Z 0xFF800000#32 reduces_S5000x64_S5000 (.inl rfl) rfl) shapeCasts_S5000_S5000x1) broadcasts_S5000x1_S5000x64))
    (broadcastTo S5000x64 (log (shapeCast S5000x1
      (multiReduction .add [1] S5000
        (exp (subf Z (broadcastTo S5000x64 (shapeCast S5000x1
          (multiReduction .maximumf [1] S5000 Z 0xFF800000#32 reduces_S5000x64_S5000 (.inl rfl) rfl) shapeCasts_S5000_S5000x1) broadcasts_S5000x1_S5000x64)))
        0x00000000#32 reduces_S5000x64_S5000 (.inl rfl) rfl) shapeCasts_S5000_S5000x1)) broadcasts_S5000x1_S5000x64)

/-- The second body's stored block is the normalisation of its logits block. -/
theorem pay_split (x0 : Vec Ideal S5000x128 .f32) (x1 : Vec Ideal S5000x1 .f32) (x2 : Vec Ideal S5000x128 .bf16)
    (x3 x5 : Vec Ideal S128x64 .f32) (x4 : Vec Ideal S1x64 .f32) :
    k1_pay1 x0 x1 x2 x3 x5 x4 = tail (zblk x0 x1 x2 x3 x5 x4) := by
  unfold k1_pay1 tail zblk; rfl

/-- An entry of the logits block is the specification's logit of the loaded blocks. -/
theorem zblk_apply (x0 : Vec Ideal S5000x128 .f32) (x1 : Vec Ideal S5000x1 .f32) (x2 : Vec Ideal S5000x128 .bf16)
    (x3 x5 : Vec Ideal S128x64 .f32) (x4 : Vec Ideal S1x64 .f32) (p : Fin 5000) (j : Fin 64) :
    zblk x0 x1 x2 x3 x5 x4 (ix2 p j)
      = Cert.Sage.logits (n := 5000) (d := 128) (h := 64) x0 (fun p => x1 (ix2 p (0 : Fin 1))) x2 x3 x5 (fun q => x4 (ix2 (0 : Fin 1) q)) p j := by
  unfold zblk
  simp only [addf_apply]
  rw [mm_output, mm_output]
  simp only [truncf_apply, mulf_apply, shapeCast_self, broadcastTo_a1_ab_apply, broadcastTo_1b_ab_apply]
  rfl

/-- The row-wise normalisation read at `(p, q)`: the logarithm of the soft maximum of row `p` at `q`. -/
theorem tail_apply (Z : FVec Ideal S5000x64 .f32) (p : Fin 5000) (q : Fin 64) :
    tail Z (ix2 p q) = Cert.Sage.lsm (fun j => Z (ix2 p j)) q := by
  have hM : multiReduction .maximumf [1] S5000 Z 0xFF800000#32 reduces_S5000x64_S5000 (.inl rfl) rfl (ix1 p)
      = Cert.Sage.rowMax (fun j => Z (ix2 p j)) :=
    laneMax_apply Z _ reduces_S5000x64_S5000 (.inl rfl) rfl p
  have hB : ∀ k : Fin 64, broadcastTo S5000x64 (shapeCast S5000x1
      (multiReduction .maximumf [1] S5000 Z 0xFF800000#32 reduces_S5000x64_S5000 (.inl rfl) rfl) shapeCasts_S5000_S5000x1)
      broadcasts_S5000x1_S5000x64 (ix2 p k) = Cert.Sage.rowMax (fun j => Z (ix2 p j)) := fun k => by
    rw [broadcastTo_a1_ab_apply, shapeCast_a_a1_apply]; exact hM
  unfold tail
  simp only [subf_apply]
  rw [hB q, broadcastTo_a1_ab_apply]
  show (Z (ix2 p q) - Cert.Sage.rowMax (fun j => Z (ix2 p j)))
      - FloatOps.log (shapeCast S5000x1 _ shapeCasts_S5000_S5000x1 (ix2 p (0 : Fin 1)))
    = (Z (ix2 p q) - Cert.Sage.rowMax (fun j => Z (ix2 p j)))
      - Ideal.log (∑ j', Ideal.exp (Z (ix2 p j') - Cert.Sage.rowMax (fun j => Z (ix2 p j))))
  rw [shapeCast_a_a1_apply]
  refine congrArg (fun v => (Z (ix2 p q) - Cert.Sage.rowMax (fun j => Z (ix2 p j))) - Ideal.log v) ?_
  refine (laneSum_apply _ _ reduces_S5000x64_S5000 (.inl rfl) rfl p).trans ?_
  refine Finset.sum_congr rfl fun k _ => ?_
  show Ideal.exp (Z (ix2 p k) - broadcastTo S5000x64 _ broadcasts_S5000x1_S5000x64 (ix2 p k))
    = Ideal.exp (Z (ix2 p k) - Cert.Sage.rowMax (fun j => Z (ix2 p j)))
  rw [hB k]

/-- The second body's stored block is the output layer of its loaded blocks. -/
theorem pay_output (x0 : Vec Ideal S5000x128 .f32) (x1 : Vec Ideal S5000x1 .f32) (x2 : Vec Ideal S5000x128 .bf16)
    (x3 x5 : Vec Ideal S128x64 .f32) (x4 : Vec Ideal S1x64 .f32) :
    k1_pay1 x0 x1 x2 x3 x5 x4
      = Cert.Sage.output (n := 5000) (d := 128) (h := 64) x0 (fun p => x1 (ix2 p (0 : Fin 1))) x2 x3 x5 (fun q => x4 (ix2 (0 : Fin 1) q)) := by
  funext j
  obtain ⟨p, q, rfl⟩ : ∃ (p : Fin 5000) (q : Fin 64), j = ix2 p q := ⟨j 0, j 1, eq_ix2 j⟩
  rw [pay_split, tail_apply]
  show Cert.Sage.lsm (fun j => zblk x0 x1 x2 x3 x5 x4 (ix2 p j)) q = Cert.Sage.lsm (fun j => Cert.Sage.logits _ _ _ _ _ _ p j) q
  simp only [zblk_apply]

end Cert.KernelIdeal.KPay

end
-- ==== Proof.KReg0.lean ====
/-
  From the blocks one launch writes back to the array it leaves, for launch 0.

  The launch runs its body at ten grid points; point `t` stages rows 5000·t … 5000·t + 4999 of the three row-indexed
  operands, the whole of the two weight matrices and the bias row, and writes the body's block back to the same
  rows of the output array.  The body's block is the layer of the specification taken on the staged blocks, and an
  entry of that layer reads only its own row of the row-indexed operands; so the block written back is the block
  of the layer taken on the whole arrays, and since the ten blocks tile the output array, the array ends holding
  that layer.  The arrays are those the launch finds when it starts (a parameter here).
-/
import proofs.«113475_j29841432773038_2_alg».proof.Proof.Gen.KernelIdeal.Frame
import proofs.«113475_j29841432773038_2_alg».proof.Proof.KPay
import Idealize.ShloMosaic.Lib.Pipeline.Value

set_option maxRecDepth 16384

noncomputable section

namespace Cert.KernelIdeal.KReg0

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-- The zero offsets of a rank-2 access, as the printed programs spell them. -/
theorem zeros2 : (![0, 0] : Fin 2 → Nat) = fun _ => 0 := funext fun a => by fin_cases a <;> rfl

/-! ## Launch 0 -/

/-- The printed index maps of launch 0, decided over its ten grid points: the three row-blocked inputs and the
    output move down one block of 5000 rows per point, the weights and the bias stay at their one block. -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- The row of the arrays that row `p` of point `t`'s blocks is. -/
def row0 (t : Fin cfg0.N) (p : Fin 5000) : Fin 50000 :=
  ⟨t.val * 5000 + p.val, by have ht : t.val < grid0.N := t.isLt; have hN := N_0; have hp := p.isLt; show t.val * 5000 + p.val < 50000; omega⟩

/-- What the output array of launch 0 ends holding: the hidden layer of the arrays as the launch finds them. -/
def G0 (c : Dev nD) : S50000x128.Idx → EReal :=
  Cert.Sage.hidden (n := 50000) (d := 128) (h := 128)
    (V c main_v24) (fun r => V c main_v12 (ix2 r (0 : Fin 1))) (V c main_arg0) (V c main_v25) (V c main_v26)
    (fun q => V c main_v27 (ix2 (0 : Fin 1) q))

/-- Point `t`'s block of the neighbour sums reads the array 5000·t rows further down. -/
theorem blk0_0 (c : Dev nD) (t : Fin cfg0.N) (p : Fin 5000) (k : Fin 128) :
    iblk0 V c 0 t (ix2 (n0 := 5000) (n1 := 128) p k) = V c main_v24 (ix2 (row0 t p) k) := by
  obtain ⟨e00, e01, -⟩ := idx_facts0 t
  show V c main_v24 (((cfg0.win 0).blk t).view.emb (ix2 (n0 := 5000) (n1 := 128) p k)) = _
  refine congrArg (V c main_v24) (funext fun a => Fin.ext ?_)
  match a with
  | ⟨0, _⟩ => show win0_0.index t (0 : Fin 2) * 5000 + 1 * p.val = t.val * 5000 + p.val; omega
  | ⟨1, _⟩ => show win0_0.index t (1 : Fin 2) * 128 + 1 * k.val = k.val; omega
/-- Point `t`'s block of the reciprocal in-degrees likewise. -/
theorem blk0_1 (c : Dev nD) (t : Fin cfg0.N) (p : Fin 5000) :
    iblk0 V c 1 t (ix2 (n0 := 5000) (n1 := 1) p (0 : Fin 1)) = V c main_v12 (ix2 (row0 t p) (0 : Fin 1)) := by
  obtain ⟨-, -, e10, e11, -⟩ := idx_facts0 t
  show V c main_v12 (((cfg0.win 1).blk t).view.emb (ix2 (n0 := 5000) (n1 := 1) p (0 : Fin 1))) = _
  refine congrArg (V c main_v12) (funext fun a => Fin.ext ?_)
  match a with
  | ⟨0, _⟩ => show win0_1.index t (0 : Fin 2) * 5000 + 1 * p.val = t.val * 5000 + p.val; omega
  | ⟨1, _⟩ => show win0_1.index t (1 : Fin 2) * 1 + 1 * 0 = 0; omega
/-- Point `t`'s block of the node features likewise. -/
theorem blk0_2 (c : Dev nD) (t : Fin cfg0.N) (p : Fin 5000) (k : Fin 128) :
    iblk0 V c 2 t (ix2 (n0 := 5000) (n1 := 128) p k) = V c main_arg0 (ix2 (row0 t p) k) := by
  obtain ⟨-, -, -, -, e20, e21, -⟩ := idx_facts0 t
  show V c main_arg0 (((cfg0.win 2).blk t).view.emb (ix2 (n0 := 5000) (n1 := 128) p k)) = _
  refine congrArg (V c main_arg0) (funext fun a => Fin.ext ?_)
  match a with
  | ⟨0, _⟩ => show win0_2.index t (0 : Fin 2) * 5000 + 1 * p.val = t.val * 5000 + p.val; omega
  | ⟨1, _⟩ => show win0_2.index t (1 : Fin 2) * 128 + 1 * k.val = k.val; omega
/-- The neighbour weights' one block is the whole matrix. -/
theorem blk0_3 (c : Dev nD) (t : Fin cfg0.N) (k : Fin 128) (q : Fin 128) :
    iblk0 V c 3 t (ix2 (n0 := 128) (n1 := 128) k q) = V c main_v25 (ix2 k q) := by
  obtain ⟨-, -, -, -, -, -, e30, e31, -⟩ := idx_facts0 t
  show V c main_v25 (((cfg0.win 3).blk t).view.emb (ix2 (n0 := 128) (n1 := 128) k q)) = _
  refine congrArg (V c main_v25) (funext fun a => Fin.ext ?_)
  match a with
  | ⟨0, _⟩ => show win0_3.index t (0 : Fin 2) * 128 + 1 * k.val = k.val; omega
  | ⟨1, _⟩ => show win0_3.index t (1 : Fin 2) * 128 + 1 * q.val = q.val; omega
/-- The bias's one block is the whole row. -/
theorem blk0_4 (c : Dev nD) (t : Fin cfg0.N) (q : Fin 128) :
    iblk0 V c 4 t (ix2 (n0 := 1) (n1 := 128) (0 : Fin 1) q) = V c main_v27 (ix2 (0 : Fin 1) q) := by
  obtain ⟨-, -, -, -, -, -, -, -, e40, e41, -⟩ := idx_facts0 t
  show V c main_v27 (((cfg0.win 4).blk t).view.emb (ix2 (n0 := 1) (n1 := 128) (0 : Fin 1) q)) = _
  refine congrArg (V c main_v27) (funext fun a => Fin.ext ?_)
  match a with
  | ⟨0, _⟩ => show win0_4.index t (0 : Fin 2) * 1 + 1 * 0 = 0; omega
  | ⟨1, _⟩ => show win0_4.index t (1 : Fin 2) * 128 + 1 * q.val = q.val; omega
/-- The self weights' one block is the whole matrix. -/
theorem blk0_5 (c : Dev nD) (t : Fin cfg0.N) (k : Fin 128) (q : Fin 128) :
    iblk0 V c 5 t (ix2 (n0 := 128) (n1 := 128) k q) = V c main_v26 (ix2 k q) := by
  obtain ⟨-, -, -, -, -, -, -, -, -, -, e50, e51, -⟩ := idx_facts0 t
  show V c main_v26 (((cfg0.win 5).blk t).view.emb (ix2 (n0 := 128) (n1 := 128) k q)) = _
  refine congrArg (V c main_v26) (funext fun a => Fin.ext ?_)
  match a with
  | ⟨0, _⟩ => show win0_5.index t (0 : Fin 2) * 128 + 1 * k.val = k.val; omega
  | ⟨1, _⟩ => show win0_5.index t (1 : Fin 2) * 128 + 1 * q.val = q.val; omega
/-- Entry `(p, q)` of point `t`'s output block sits at row 5000·t + p, column `q` of the output array. -/
theorem emb0_6 (t : Fin cfg0.N) (p : Fin 5000) (q : Fin 128) :
    ((cfg0.win 6).blk t).view.emb (ix2 (n0 := 5000) (n1 := 128) p q) = ix2 (row0 t p) q := by
  obtain ⟨-, -, -, -, -, -, -, -, -, -, -, -, e60, e61⟩ := idx_facts0 t
  funext a; apply Fin.ext
  match a with
  | ⟨0, _⟩ => show win0_6.index t (0 : Fin 2) * 5000 + 1 * p.val = t.val * 5000 + p.val; omega
  | ⟨1, _⟩ => show win0_6.index t (1 : Fin 2) * 128 + 1 * q.val = q.val; omega

/-- What point `t` writes back is block `t` of `G0`: the body's block is the layer of the loaded blocks, and an
    entry of the layer reads only its own row of the row-blocked operands. -/
theorem flushed0 (c : Dev nD) (t : Fin cfg0.N) :
    (dat0 (F := Ideal) V c).flushed 6 t = ((cfg0.win 6).blk t).view.read (Elt Ideal) (G0 V c) := by
  show (cfg0.win 6).cut (grid0.coords t) ((dat0 (F := Ideal) V c).after 6 t) = _
  rw [after0_6]
  unfold out0_6
  rw [View.canon_unit_zero zeros2]
  simp only [View.ld_unit_zero (S := S5000x128) zeros2, View.ld_unit_zero (S := S5000x1) zeros2,
    View.ld_unit_zero (S := S128x128) zeros2, View.ld_unit_zero (S := S1x128) zeros2]
  rw [KPay.pay_hidden]
  funext y
  obtain ⟨p, q, rfl⟩ : ∃ (p : Fin 5000) (q : Fin 128), y = ix2 p q := ⟨y 0, y 1, eq_ix2 y⟩
  show _ = G0 V c (((cfg0.win 6).blk t).view.emb (ix2 (n0 := 5000) (n1 := 128) p q))
  rw [emb0_6]
  exact Cert.Sage.hidden_block _ _ _ _ _ _ _ _ _ _ _ _ p (row0 t p) q
    (fun k => blk0_0 V c t p k) (blk0_1 V c t p) (fun k => blk0_2 V c t p k)
    (fun k q' => blk0_3 V c t k q') (fun k q' => blk0_5 V c t k q') (fun q' => blk0_4 V c t q')

/-- An index of the output array is in point `t`'s block iff each coordinate is in the block's range. -/
theorem mem_blk0 (t : Fin cfg0.N) (i : S50000x128.Idx) :
    i ∈ ((cfg0.win 6).blk t).view.set ↔ ∀ a : Fin 2, win0_6.index t a * S5000x128.size a ≤ (i a).val ∧ (i a).val < win0_6.index t a * S5000x128.size a + S5000x128.size a := by
  show i ∈ ((View.whole main_v28).slice (win0_6.rect t)).set ↔ _
  rw [View.set_slice_whole, Rect.mem_set_unit]
  exact Iff.rfl

/-- The ten blocks of 5000 rows tile the output array: row `r` is in the block of point `r / 5000`. -/
theorem cover0 (i : S50000x128.Idx) :
    ∃ t : Fin cfg0.N, (cfg0.win 6).flush t = true ∧ i ∈ ((cfg0.win 6).blk t).view.set := by
  have hi0 : (i 0).val < 50000 := (i 0).isLt
  have hi1 : (i 1).val < 128 := (i 1).isLt
  have hN := N_0
  let t : Fin cfg0.N := ⟨(i 0).val / 5000, by show (i 0).val / 5000 < grid0.N; omega⟩
  refine ⟨t, flush0_6 t, ?_⟩
  obtain ⟨-, -, -, -, -, -, -, -, -, -, -, -, e60, e61⟩ := idx_facts0 t
  have ht : t.val = (i 0).val / 5000 := rfl
  rw [mem_blk0]
  intro a
  match a with
  | ⟨0, _⟩ => show win0_6.index t (0 : Fin 2) * 5000 ≤ (i 0).val ∧ (i 0).val < win0_6.index t (0 : Fin 2) * 5000 + 5000; omega
  | ⟨1, _⟩ => show win0_6.index t (1 : Fin 2) * 128 ≤ (i 1).val ∧ (i 1).val < win0_6.index t (1 : Fin 2) * 128 + 128; omega

/-- The output array of launch 0, after the launch, is the hidden layer of the arrays the launch found. -/
theorem final0 (c : Dev nD) : (dat0 (F := Ideal) V c).arrAt 6 cfg0.N = G0 V c :=
  (dat0 (F := Ideal) V c).arrAt_eq_of_cover 6 (G0 V c) (fun t _ => flushed0 V c t) (cover0)

end Cert.KernelIdeal.KReg0

end
-- ==== Proof.KReg1.lean ====
/-
  From the blocks one launch writes back to the array it leaves, for launch 1.

  The launch runs its body at ten grid points; point `t` stages rows 5000·t … 5000·t + 4999 of the three row-indexed
  operands, the whole of the two weight matrices and the bias row, and writes the body's block back to the same
  rows of the output array.  The body's block is the layer of the specification taken on the staged blocks, and an
  entry of that layer reads only its own row of the row-indexed operands; so the block written back is the block
  of the layer taken on the whole arrays, and since the ten blocks tile the output array, the array ends holding
  that layer.  The arrays are those the launch finds when it starts (a parameter here).
-/
import proofs.«113475_j29841432773038_2_alg».proof.Proof.Gen.KernelIdeal.Frame
import proofs.«113475_j29841432773038_2_alg».proof.Proof.KPay
import Idealize.ShloMosaic.Lib.Pipeline.Value

set_option maxRecDepth 16384

noncomputable section

namespace Cert.KernelIdeal.KReg1

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-- The zero offsets of a rank-2 access, as the printed programs spell them. -/
theorem zeros2 : (![0, 0] : Fin 2 → Nat) = fun _ => 0 := funext fun a => by fin_cases a <;> rfl

/-! ## Launch 1 -/

/-- The printed index maps of launch 1, decided over its ten grid points: the three row-blocked inputs and the
    output move down one block of 5000 rows per point, the weights and the bias stay at their one block. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- The row of the arrays that row `p` of point `t`'s blocks is. -/
def row1 (t : Fin cfg1.N) (p : Fin 5000) : Fin 50000 :=
  ⟨t.val * 5000 + p.val, by have ht : t.val < grid1.N := t.isLt; have hN := N_1; have hp := p.isLt; show t.val * 5000 + p.val < 50000; omega⟩

/-- What the output array of launch 1 ends holding: the output layer of the arrays as the launch finds them. -/
def G1 (c : Dev nD) : S50000x64.Idx → EReal :=
  Cert.Sage.output (n := 50000) (d := 128) (h := 64)
    (V c main_v39) (fun r => V c main_v12 (ix2 r (0 : Fin 1))) (V c main_v28) (V c main_v40) (V c main_v41)
    (fun q => V c main_v42 (ix2 (0 : Fin 1) q))

/-- Point `t`'s block of the neighbour sums reads the array 5000·t rows further down. -/
theorem blk1_0 (c : Dev nD) (t : Fin cfg1.N) (p : Fin 5000) (k : Fin 128) :
    iblk1 V c 0 t (ix2 (n0 := 5000) (n1 := 128) p k) = V c main_v39 (ix2 (row1 t p) k) := by
  obtain ⟨e00, e01, -⟩ := idx_facts1 t
  show V c main_v39 (((cfg1.win 0).blk t).view.emb (ix2 (n0 := 5000) (n1 := 128) p k)) = _
  refine congrArg (V c main_v39) (funext fun a => Fin.ext ?_)
  match a with
  | ⟨0, _⟩ => show win1_0.index t (0 : Fin 2) * 5000 + 1 * p.val = t.val * 5000 + p.val; omega
  | ⟨1, _⟩ => show win1_0.index t (1 : Fin 2) * 128 + 1 * k.val = k.val; omega
/-- Point `t`'s block of the reciprocal in-degrees likewise. -/
theorem blk1_1 (c : Dev nD) (t : Fin cfg1.N) (p : Fin 5000) :
    iblk1 V c 1 t (ix2 (n0 := 5000) (n1 := 1) p (0 : Fin 1)) = V c main_v12 (ix2 (row1 t p) (0 : Fin 1)) := by
  obtain ⟨-, -, e10, e11, -⟩ := idx_facts1 t
  show V c main_v12 (((cfg1.win 1).blk t).view.emb (ix2 (n0 := 5000) (n1 := 1) p (0 : Fin 1))) = _
  refine congrArg (V c main_v12) (funext fun a => Fin.ext ?_)
  match a with
  | ⟨0, _⟩ => show win1_1.index t (0 : Fin 2) * 5000 + 1 * p.val = t.val * 5000 + p.val; omega
  | ⟨1, _⟩ => show win1_1.index t (1 : Fin 2) * 1 + 1 * 0 = 0; omega
/-- Point `t`'s block of the node features likewise. -/
theorem blk1_2 (c : Dev nD) (t : Fin cfg1.N) (p : Fin 5000) (k : Fin 128) :
    iblk1 V c 2 t (ix2 (n0 := 5000) (n1 := 128) p k) = V c main_v28 (ix2 (row1 t p) k) := by
  obtain ⟨-, -, -, -, e20, e21, -⟩ := idx_facts1 t
  show V c main_v28 (((cfg1.win 2).blk t).view.emb (ix2 (n0 := 5000) (n1 := 128) p k)) = _
  refine congrArg (V c main_v28) (funext fun a => Fin.ext ?_)
  match a with
  | ⟨0, _⟩ => show win1_2.index t (0 : Fin 2) * 5000 + 1 * p.val = t.val * 5000 + p.val; omega
  | ⟨1, _⟩ => show win1_2.index t (1 : Fin 2) * 128 + 1 * k.val = k.val; omega
/-- The neighbour weights' one block is the whole matrix. -/
theorem blk1_3 (c : Dev nD) (t : Fin cfg1.N) (k : Fin 128) (q : Fin 64) :
    iblk1 V c 3 t (ix2 (n0 := 128) (n1 := 64) k q) = V c main_v40 (ix2 k q) := by
  obtain ⟨-, -, -, -, -, -, e30, e31, -⟩ := idx_facts1 t
  show V c main_v40 (((cfg1.win 3).blk t).view.emb (ix2 (n0 := 128) (n1 := 64) k q)) = _
  refine congrArg (V c main_v40) (funext fun a => Fin.ext ?_)
  match a with
  | ⟨0, _⟩ => show win1_3.index t (0 : Fin 2) * 128 + 1 * k.val = k.val; omega
  | ⟨1, _⟩ => show win1_3.index t (1 : Fin 2) * 64 + 1 * q.val = q.val; omega
/-- The bias's one block is the whole row. -/
theorem blk1_4 (c : Dev nD) (t : Fin cfg1.N) (q : Fin 64) :
    iblk1 V c 4 t (ix2 (n0 := 1) (n1 := 64) (0 : Fin 1) q) = V c main_v42 (ix2 (0 : Fin 1) q) := by
  obtain ⟨-, -, -, -, -, -, -, -, e40, e41, -⟩ := idx_facts1 t
  show V c main_v42 (((cfg1.win 4).blk t).view.emb (ix2 (n0 := 1) (n1 := 64) (0 : Fin 1) q)) = _
  refine congrArg (V c main_v42) (funext fun a => Fin.ext ?_)
  match a with
  | ⟨0, _⟩ => show win1_4.index t (0 : Fin 2) * 1 + 1 * 0 = 0; omega
  | ⟨1, _⟩ => show win1_4.index t (1 : Fin 2) * 64 + 1 * q.val = q.val; omega
/-- The self weights' one block is the whole matrix. -/
theorem blk1_5 (c : Dev nD) (t : Fin cfg1.N) (k : Fin 128) (q : Fin 64) :
    iblk1 V c 5 t (ix2 (n0 := 128) (n1 := 64) k q) = V c main_v41 (ix2 k q) := by
  obtain ⟨-, -, -, -, -, -, -, -, -, -, e50, e51, -⟩ := idx_facts1 t
  show V c main_v41 (((cfg1.win 5).blk t).view.emb (ix2 (n0 := 128) (n1 := 64) k q)) = _
  refine congrArg (V c main_v41) (funext fun a => Fin.ext ?_)
  match a with
  | ⟨0, _⟩ => show win1_5.index t (0 : Fin 2) * 128 + 1 * k.val = k.val; omega
  | ⟨1, _⟩ => show win1_5.index t (1 : Fin 2) * 64 + 1 * q.val = q.val; omega
/-- Entry `(p, q)` of point `t`'s output block sits at row 5000·t + p, column `q` of the output array. -/
theorem emb1_6 (t : Fin cfg1.N) (p : Fin 5000) (q : Fin 64) :
    ((cfg1.win 6).blk t).view.emb (ix2 (n0 := 5000) (n1 := 64) p q) = ix2 (row1 t p) q := by
  obtain ⟨-, -, -, -, -, -, -, -, -, -, -, -, e60, e61⟩ := idx_facts1 t
  funext a; apply Fin.ext
  match a with
  | ⟨0, _⟩ => show win1_6.index t (0 : Fin 2) * 5000 + 1 * p.val = t.val * 5000 + p.val; omega
  | ⟨1, _⟩ => show win1_6.index t (1 : Fin 2) * 64 + 1 * q.val = q.val; omega

/-- What point `t` writes back is block `t` of `G1`: the body's block is the layer of the loaded blocks, and an
    entry of the layer reads only its own row of the row-blocked operands. -/
theorem flushed1 (c : Dev nD) (t : Fin cfg1.N) :
    (dat1 (F := Ideal) V c).flushed 6 t = ((cfg1.win 6).blk t).view.read (Elt Ideal) (G1 V c) := by
  show (cfg1.win 6).cut (grid1.coords t) ((dat1 (F := Ideal) V c).after 6 t) = _
  rw [after1_6]
  unfold out1_6
  rw [View.canon_unit_zero zeros2]
  simp only [View.ld_unit_zero (S := S5000x128) zeros2, View.ld_unit_zero (S := S5000x1) zeros2,
    View.ld_unit_zero (S := S128x64) zeros2, View.ld_unit_zero (S := S1x64) zeros2]
  rw [KPay.pay_output]
  funext y
  obtain ⟨p, q, rfl⟩ : ∃ (p : Fin 5000) (q : Fin 64), y = ix2 p q := ⟨y 0, y 1, eq_ix2 y⟩
  show _ = G1 V c (((cfg1.win 6).blk t).view.emb (ix2 (n0 := 5000) (n1 := 64) p q))
  rw [emb1_6]
  exact Cert.Sage.output_block _ _ _ _ _ _ _ _ _ _ _ _ p (row1 t p) q
    (fun k => blk1_0 V c t p k) (blk1_1 V c t p) (fun k => blk1_2 V c t p k)
    (fun k q' => blk1_3 V c t k q') (fun k q' => blk1_5 V c t k q') (fun q' => blk1_4 V c t q')

/-- An index of the output array is in point `t`'s block iff each coordinate is in the block's range. -/
theorem mem_blk1 (t : Fin cfg1.N) (i : S50000x64.Idx) :
    i ∈ ((cfg1.win 6).blk t).view.set ↔ ∀ a : Fin 2, win1_6.index t a * S5000x64.size a ≤ (i a).val ∧ (i a).val < win1_6.index t a * S5000x64.size a + S5000x64.size a := by
  show i ∈ ((View.whole main_v43).slice (win1_6.rect t)).set ↔ _
  rw [View.set_slice_whole, Rect.mem_set_unit]
  exact Iff.rfl

/-- The ten blocks of 5000 rows tile the output array: row `r` is in the block of point `r / 5000`. -/
theorem cover1 (i : S50000x64.Idx) :
    ∃ t : Fin cfg1.N, (cfg1.win 6).flush t = true ∧ i ∈ ((cfg1.win 6).blk t).view.set := by
  have hi0 : (i 0).val < 50000 := (i 0).isLt
  have hi1 : (i 1).val < 64 := (i 1).isLt
  have hN := N_1
  let t : Fin cfg1.N := ⟨(i 0).val / 5000, by show (i 0).val / 5000 < grid1.N; omega⟩
  refine ⟨t, flush1_6 t, ?_⟩
  obtain ⟨-, -, -, -, -, -, -, -, -, -, -, -, e60, e61⟩ := idx_facts1 t
  have ht : t.val = (i 0).val / 5000 := rfl
  rw [mem_blk1]
  intro a
  match a with
  | ⟨0, _⟩ => show win1_6.index t (0 : Fin 2) * 5000 ≤ (i 0).val ∧ (i 0).val < win1_6.index t (0 : Fin 2) * 5000 + 5000; omega
  | ⟨1, _⟩ => show win1_6.index t (1 : Fin 2) * 64 ≤ (i 1).val ∧ (i 1).val < win1_6.index t (1 : Fin 2) * 64 + 64; omega

/-- The output array of launch 1, after the launch, is the output layer of the arrays the launch found. -/
theorem final1 (c : Dev nD) : (dat1 (F := Ideal) V c).arrAt 6 cfg1.N = G1 V c :=
  (dat1 (F := Ideal) V c).arrAt_eq_of_cover 6 (G1 V c) (fun t _ => flushed1 V c t) (cover1)

end Cert.KernelIdeal.KReg1

end
-- ==== Proof.KValue.lean ====
/-
  What the idealized kernel returns, as one function of its arguments.

  The first launch finds the neighbour sums of the features, the reciprocal clamped in-degrees, the features, and
  the first layer's transposed weights and bias row, and leaves the hidden layer of those.  The second stretch of
  host operations forms the neighbour sums of the hidden rows; the second launch finds them beside the same
  reciprocal in-degrees, the hidden rows, and the second layer's transposed weights and bias row, and leaves the
  output layer of those in the returned buffer.
-/
import proofs.«113475_j29841432773038_2_alg».proof.Proof.KRun
import proofs.«113475_j29841432773038_2_alg».proof.Proof.KHost
import proofs.«113475_j29841432773038_2_alg».proof.Proof.KReg0
import proofs.«113475_j29841432773038_2_alg».proof.Proof.KReg1

set_option maxRecDepth 16384

noncomputable section

namespace Cert.KernelIdeal.KValue

open Cert.KernelIdeal Cert.KernelIdeal.Gen
open Idealize.ShloMosaic Idealize.ShloMosaic.TcCoe Idealize.ShloMosaic.ValueIdx
open Idealize.SL.Sem

/-- The hidden layer, as a function of the features, the edge list and the first layer's parameters. -/
def hid (x0 : S50000x128.Idx → EReal) (e : IVec S2x600000 32) (w1l : S128x128.Idx → EReal) (b1 : S128.Idx → EReal)
    (w1r : S128x128.Idx → EReal) : S50000x128.Idx → EReal :=
  Cert.Sage.hidden (n := 50000) (d := 128) (h := 128) (KHost.agg e x0) (fun r => KHost.invCol e (ix2 r (0 : Fin 1))) x0
    (transpose S128x128 [1, 0] w1l transposes_S128x128_S128x128_1_0)
    (transpose S128x128 [1, 0] w1r transposes_S128x128_S128x128_1_0)
    (fun q => shapeCast S1x128 b1 shapeCasts_S128_S1x128 (ix2 (0 : Fin 1) q))

/-- The network's output, as a function of all eight arguments. -/
def net (x0 : S50000x128.Idx → EReal) (e : IVec S2x600000 32) (w1l : S128x128.Idx → EReal) (b1 : S128.Idx → EReal)
    (w1r : S128x128.Idx → EReal) (w2l : S64x128.Idx → EReal) (b2 : S64.Idx → EReal) (w2r : S64x128.Idx → EReal) :
    S50000x64.Idx → EReal :=
  Cert.Sage.output (n := 50000) (d := 128) (h := 64) (KHost.agg e (hid x0 e w1l b1 w1r))
    (fun r => KHost.invCol e (ix2 r (0 : Fin 1))) (hid x0 e w1l b1 w1r)
    (transpose S128x64 [1, 0] w2l transposes_S64x128_S128x64_1_0)
    (transpose S128x64 [1, 0] w2r transposes_S64x128_S128x64_1_0)
    (fun q => shapeCast S1x64 b2 shapeCasts_S64_S1x64 (ix2 (0 : Fin 1) q))

variable (m : (ℓ : Loc nD τ sig) → Buf (Elt Ideal) ℓ) (ρ : Dev nD → PrngReg)

/-- After the first launch the hidden-layer buffer holds the hidden layer of the arguments. -/
theorem hidden_val (c : Dev nD) :
    (W2 m ρ c (Proc.devRef .tc main_v28) : S50000x128.Idx → EReal)
      = hid (m ((c : Thread nD τ).loc main_arg0)) (m ((c : Thread nD τ).loc main_arg1)) (m ((c : Thread nD τ).loc main_arg2))
          (m ((c : Thread nD τ).loc main_arg3)) (m ((c : Thread nD τ).loc main_arg4)) := by
  rw [KRun.hidden_eq, KReg0.final0]
  unfold KReg0.G0
  rw [KHost.v1_v24, KHost.v1_v12, KHost.v1_arg0, KHost.v1_v25, KHost.v1_v26, KHost.v1_v27]
  rfl

/-- When the program returns, the returned buffer holds the network's output of the arguments. -/
theorem result_val (c : Dev nD) :
    (W4 m ρ c (Proc.devRef .tc main_v43) : S50000x64.Idx → EReal)
      = net (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) := by
  rw [KRun.result_eq, KReg1.final1]
  unfold KReg1.G1
  rw [KHost.v3_v39, KHost.v3_v12, KHost.v3_v28, KHost.v3_v40, KHost.v3_v41, KHost.v3_v42, hidden_val]
  rfl

/-- The idealized kernel's run: it ends with the network's output of the arguments in the returned buffer and the
    arguments as launched. -/
theorem run : θ_run defs (onTc (τ := τ) (main (F := Ideal))) ⟨m, fun _ => 0, ρ⟩ (fun r => ∀ c : Dev nD,
      r.2.mem ((c.tc : Thread nD τ).loc main_v43)
        = net (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (result_val m ρ c), (h c).2⟩) (KRun.run_result m ρ)

end Cert.KernelIdeal.KValue

end
-- ==== Proof.RefEval.lean ====
/-
  The reference's run, read: its result buffer holds the last stage's value of the arguments.

  The run gives the result buffer at the fold of the program's 88 operations over the launch contents.  The fold is
  read in two parts.  The first 73 operations end with the second layer's logits, and their fold at the logits'
  buffer is the logits stage of the arguments.  The last 15 operations are the row-wise normalisation; they read
  only the logits' buffer, do not write it, and leave in the result buffer the normalisation `tailOf` of what the
  logits' buffer holds.  Keeping the logits as one buffer's contents while the normalisation is read keeps each
  step small: the normalisation mentions its operand four times.
-/
import proofs.«113475_j29841432773038_2_alg».proof.Proof.RefRun
import proofs.«113475_j29841432773038_2_alg».proof.Proof.RefRead

noncomputable section

namespace Cert.ReferenceIdeal.RefEval

open Cert.ReferenceIdeal Cert.ReferenceIdeal.Gen Idealize.ShloMosaic Idealize.ShloMosaic.TcCoe Idealize.SL.Sem Idealize.ShloMosaic.StableHlo

variable {F : FTy → Type} [FloatOps F]

/-- The fold over a list put together from two is the fold over the second from the fold over the first. -/
theorem after_append (l1 l2 : List (HloOp τ sig (Elt F))) (W : Valuation τ sig (Elt F)) :
    after (l1 ++ l2) W = after l2 (after l1 W) := by
  induction l1 generalizing W with
  | nil => rfl
  | cons op l ih => exact ih (op.result W)

/-- The program's last 15 operations: the row-wise normalisation of the logits. -/
abbrev opsC : List (HloOp τ sig (Elt F)) :=
  [ TRef.nullary (TRef.of (T := ⟨S_, .f32⟩) main_call1_cst) (constant S_ .f32 0xFF800000#32),
    TRef.binary (TRef.of (T := ⟨S50000x64, .f32⟩) main_v58) (TRef.of (T := ⟨S_, .f32⟩) main_call1_cst) (TRef.of (T := ⟨S50000, .f32⟩) main_call1_v0) (fun x v => Host.reduce FloatOps.maximumf x v reducesTo_S50000x64_S50000_d1 h_S_),
    TRef.nullary (TRef.of (T := ⟨S_, .f32⟩) main_call1_cst_0) (constant S_ .f32 0xFF800000#32),
    TRef.unary (TRef.of (T := ⟨S_, .f32⟩) main_call1_cst_0) (TRef.of (T := ⟨S50000, .f32⟩) main_call1_v1) (broadcastInDim S50000 ![] bcast_S_S50000),
    TRef.binary (TRef.of (T := ⟨S50000, .f32⟩) main_call1_v1) (TRef.of (T := ⟨S50000, .f32⟩) main_call1_v0) (TRef.of (T := ⟨S50000, .f32⟩) main_call1_v2) maximumf,
    TRef.unary (TRef.of (T := ⟨S50000, .f32⟩) main_call1_v2) (TRef.of (T := ⟨S50000x1, .f32⟩) main_call1_v3) (broadcastInDim S50000x1 ![0] bcast_S50000_S50000x1_0),
    TRef.unary (TRef.of (T := ⟨S50000x1, .f32⟩) main_call1_v3) (TRef.of (T := ⟨S50000x64, .f32⟩) main_call1_v4) (broadcastInDim S50000x64 ![0, 1] bcast_S50000x1_S50000x64_0_1),
    TRef.binary (TRef.of (T := ⟨S50000x64, .f32⟩) main_v58) (TRef.of (T := ⟨S50000x64, .f32⟩) main_call1_v4) (TRef.of (T := ⟨S50000x64, .f32⟩) main_call1_v5) subf,
    TRef.unary (TRef.of (T := ⟨S50000x64, .f32⟩) main_call1_v5) (TRef.of (T := ⟨S50000x64, .f32⟩) main_call1_v6) Host.exp,
    TRef.nullary (TRef.of (T := ⟨S_, .f32⟩) main_call1_cst_1) (constant S_ .f32 0x00000000#32),
    TRef.binary (TRef.of (T := ⟨S50000x64, .f32⟩) main_call1_v6) (TRef.of (T := ⟨S_, .f32⟩) main_call1_cst_1) (TRef.of (T := ⟨S50000, .f32⟩) main_call1_v7) (fun x v => Host.reduceAdd x v reducesTo_S50000x64_S50000_d1 h_S_),
    TRef.unary (TRef.of (T := ⟨S50000, .f32⟩) main_call1_v7) (TRef.of (T := ⟨S50000x1, .f32⟩) main_call1_v8) (broadcastInDim S50000x1 ![0] bcast_S50000_S50000x1_0),
    TRef.unary (TRef.of (T := ⟨S50000x1, .f32⟩) main_call1_v8) (TRef.of (T := ⟨S50000x1, .f32⟩) main_call1_v9) Host.log,
    TRef.unary (TRef.of (T := ⟨S50000x1, .f32⟩) main_call1_v9) (TRef.of (T := ⟨S50000x64, .f32⟩) main_call1_v10) (broadcastInDim S50000x64 ![0, 1] bcast_S50000x1_S50000x64_0_1),
    TRef.binary (TRef.of (T := ⟨S50000x64, .f32⟩) main_call1_v5) (TRef.of (T := ⟨S50000x64, .f32⟩) main_call1_v10) (TRef.of (T := ⟨S50000x64, .f32⟩) main_v59) subf ]

/-- They are what is left of the program after its first 73 operations. -/
theorem drop_eq : (ValueP.ops (F := F)).drop 73 = opsC := rfl

/-- The normalisation as one function of the logits array: every entry less its row's maximum (the maximum
    folded from minus infinity and clamped by it once more), less the logarithm of the row's sum of the
    exponentials of those differences. -/
def tailOf (z : (⟨S50000x64, .f32⟩ : BufTy).Contents (Elt F)) : (⟨S50000x64, .f32⟩ : BufTy).Contents (Elt F) :=
  subf
    (subf z (broadcastInDim S50000x64 ![0, 1] bcast_S50000x1_S50000x64_0_1 (broadcastInDim S50000x1 ![0] bcast_S50000_S50000x1_0
      (maximumf (broadcastInDim S50000 ![] bcast_S_S50000 (constant S_ .f32 0xFF800000#32))
        (Host.reduce FloatOps.maximumf z (constant S_ .f32 0xFF800000#32) reducesTo_S50000x64_S50000_d1 h_S_)))))
    (broadcastInDim S50000x64 ![0, 1] bcast_S50000x1_S50000x64_0_1 (Host.log (broadcastInDim S50000x1 ![0] bcast_S50000_S50000x1_0
      (Host.reduceAdd
        (Host.exp (subf z (broadcastInDim S50000x64 ![0, 1] bcast_S50000x1_S50000x64_0_1 (broadcastInDim S50000x1 ![0] bcast_S50000_S50000x1_0
          (maximumf (broadcastInDim S50000 ![] bcast_S_S50000 (constant S_ .f32 0xFF800000#32))
            (Host.reduce FloatOps.maximumf z (constant S_ .f32 0xFF800000#32) reducesTo_S50000x64_S50000_d1 h_S_))))))
        (constant S_ .f32 0x00000000#32) reducesTo_S50000x64_S50000_d1 h_S_))))

/-- Contents written through a typed reference and read back through it are the contents. -/
theorem ofBuf_toBuf {T : BufTy} (x : TRef sig T) (v : T.Contents (Elt F)) : x.ofBuf (x.toBuf v) = v := by
  obtain ⟨r, h, h2, h3⟩ := x
  subst h
  rfl

/-- The result buffer's type is the result's: writing through its typed reference changes nothing. -/
theorem toBuf_result (h1 : main_v59.ty = (⟨S50000x64, .f32⟩ : BufTy)) (h2 : main_v59.space ≠ .host)
    (h3 : main_v59.isScoped = false) (v : (⟨S50000x64, .f32⟩ : BufTy).Contents (Elt F)) :
    (TRef.of (sig := sig) main_v59 h1 h2 h3).toBuf v = v := rfl

/-- The logits' buffer's type is the logits': reading through its typed reference changes nothing. -/
theorem ofBuf_logits (h1 : main_v58.ty = (⟨S50000x64, .f32⟩ : BufTy)) (h2 : main_v58.space ≠ .host)
    (h3 : main_v58.isScoped = false) (v : main_v58.ty.Contents (Elt F)) :
    (TRef.of (sig := sig) main_v58 h1 h2 h3).ofBuf v = v := rfl

/-- The last 15 operations leave in the result buffer the normalisation of what the logits' buffer holds. -/
theorem tail_result (W : Valuation τ sig (Elt F)) :
    after (opsC (F := F)) W (Proc.devRef .tc main_v59) = tailOf (W (Proc.devRef .tc main_v58)) := by
  after_results_simp
  simp only [ofBuf_toBuf, toBuf_result, ofBuf_logits]
  rfl

/-- They do not write the logits' buffer. -/
theorem tail_keeps (W : Valuation τ sig (Elt F)) :
    after (opsC (F := F)) W (Proc.devRef .tc main_v58) = W (Proc.devRef .tc main_v58) := by
  after_results_simp

/-- The last stage of the reference is the normalisation of its logits stage. -/
theorem stage_tail (x0 : (⟨S50000x128, .f32⟩ : BufTy).Contents (Elt F)) (x1 : (⟨S2x600000, .i32⟩ : BufTy).Contents (Elt F))
    (x2 : (⟨S128x128, .f32⟩ : BufTy).Contents (Elt F)) (x3 : (⟨S128, .f32⟩ : BufTy).Contents (Elt F))
    (x4 : (⟨S128x128, .f32⟩ : BufTy).Contents (Elt F)) (x5 : (⟨S64x128, .f32⟩ : BufTy).Contents (Elt F))
    (x6 : (⟨S64, .f32⟩ : BufTy).Contents (Elt F)) (x7 : (⟨S64x128, .f32⟩ : BufTy).Contents (Elt F)) :
    ReadP.val_main_v59 (F := F) x0 x1 x2 x3 x4 x5 x6 x7 = tailOf (ReadP.val_main_v58 (F := F) x0 x1 x2 x3 x4 x5 x6 x7) := rfl

set_option maxHeartbeats 1000000 in
/-- The fold of all the operations, at the logits' buffer, is the logits stage of the arguments. -/
theorem logits_result (m : (ℓ : Loc nD τ sig) → Buf (Elt F) ℓ) (c : Dev nD) :
    after (ValueP.ops (F := F)) (launchContents m c) (Proc.devRef .tc main_v58) = ReadP.val_main_v58 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  after_results_simp
  rfl

/-- The fold of all the operations, at the result buffer, is the last stage of the arguments. -/
theorem result (m : (ℓ : Loc nD τ sig) → Buf (Elt F) ℓ) (c : Dev nD) :
    after (ValueP.ops (F := F)) (launchContents m c) (Proc.devRef .tc main_v59) = ReadP.val_main_v59 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  have hs : ValueP.ops (F := F) = (ValueP.ops (F := F)).take 73 ++ opsC := by
    rw [← drop_eq]; exact (List.take_append_drop 73 _).symm
  have e59 : after (ValueP.ops (F := F)) (launchContents m c) (Proc.devRef .tc main_v59)
      = tailOf (after ((ValueP.ops (F := F)).take 73) (launchContents m c) (Proc.devRef .tc main_v58)) := by
    conv_lhs => rw [hs]
    rw [after_append, tail_result]
  have e58 : after (ValueP.ops (F := F)) (launchContents m c) (Proc.devRef .tc main_v58)
      = after ((ValueP.ops (F := F)).take 73) (launchContents m c) (Proc.devRef .tc main_v58) := by
    conv_lhs => rw [hs]
    rw [after_append, tail_keeps]
  rw [e59, ← e58, logits_result, stage_tail]

end Cert.ReferenceIdeal.RefEval

end
-- ==== Proof.RefSage.lean ====
/-
  The reference program's stages are the specification's layers.

  Read one operation at a time, the reference divides each row of neighbour sums by the clamped in-degree, takes the
  two products with the transposed weights, adds the bias, clamps at zero, does the same again on the hidden rows
  without the clamp, and finishes each row by subtracting its maximum and the logarithm of the sum of the
  exponentials.  Dividing by the clamped in-degree is scaling by its reciprocal (the degree clamped below by one
  is never zero), which is the form the specification uses; the host's maximum over a row is the fold of `max` from
  minus infinity, clamped once more by minus infinity, which changes nothing; and the host's sum starts from the
  zero pattern.  The gathers and scatter-adds that produce the neighbour sums and the degrees are left as they are:
  both programs apply the same ones.
-/
import proofs.«113475_j29841432773038_2_alg».proof.Proof.RefRead
import proofs.«113475_j29841432773038_2_alg».proof.Proof.Sage
import Idealize.ShloMosaic.PureOps.Reduce

noncomputable section

namespace Cert.ReferenceIdeal.RefSage

open Cert.ReferenceIdeal Cert.ReferenceIdeal.Gen Cert.ReferenceIdeal.ReadP
open Idealize.ShloMosaic Idealize.ShloMosaic.ValueIdx
open scoped BigOperators

variable (x0 : (⟨S50000x128, .f32⟩ : BufTy).Contents (Elt Ideal)) (x1 : (⟨S2x600000, .i32⟩ : BufTy).Contents (Elt Ideal))
  (x2 : (⟨S128x128, .f32⟩ : BufTy).Contents (Elt Ideal)) (x3 : (⟨S128, .f32⟩ : BufTy).Contents (Elt Ideal))
  (x4 : (⟨S128x128, .f32⟩ : BufTy).Contents (Elt Ideal)) (x5 : (⟨S64x128, .f32⟩ : BufTy).Contents (Elt Ideal))
  (x6 : (⟨S64, .f32⟩ : BufTy).Contents (Elt Ideal)) (x7 : (⟨S64x128, .f32⟩ : BufTy).Contents (Elt Ideal))

/-- The first layer's clamped in-degree at node `r`: the in-degree or one, whichever is larger. -/
theorem deg1_apply (r : Fin 50000) :
    val_main_v19 (F := Ideal) x1 (ix1 r) = max (val_main_v17 (F := Ideal) x1 (ix1 r)) (Ideal.ofBits .f32 0x3F800000#32) := by
  rw [val_main_v19_apply, val_main_v18_apply, val_main_cst_3_apply]; rfl
/-- The second layer's, computed again by the reference, likewise. -/
theorem deg2_apply (r : Fin 50000) :
    val_main_v47 (F := Ideal) x1 (ix1 r) = max (val_main_v45 (F := Ideal) x1 (ix1 r)) (Ideal.ofBits .f32 0x3F800000#32) := by
  rw [val_main_v47_apply, val_main_v46_apply, val_main_cst_9_apply]; rfl

/-- The reference's hidden layer is the specification's, on the neighbour sums of the features scaled by the
    reciprocal of the clamped in-degree. -/
theorem hidden_eq :
    val_main_v31 (F := Ideal) x0 x1 x2 x3 x4
      = Cert.Sage.hidden (n := 50000) (d := 128) (h := 128) (val_main_v13 (F := Ideal) x0 x1)
          (fun r => Ideal.div (Ideal.ofBits .f32 0x3F800000#32) (val_main_v19 (F := Ideal) x1 (ix1 r))) x0
          (val_main_v23 (F := Ideal) x2) (val_main_v28 (F := Ideal) x4) (fun q => x3 (ix1 q)) := by
  funext i
  obtain ⟨p, q, rfl⟩ : ∃ (p : Fin 50000) (q : Fin 128), i = ix2 p q := ⟨i 0, i 1, eq_ix2 i⟩
  rw [val_main_v31_apply, val_main_v30_apply, val_main_v27_apply, val_main_v24_apply, val_main_v29_apply,
    val_main_v26_apply, val_main_v25_apply, val_main_call0_v0_apply, val_main_call0_cst_apply]
  have hl : ∀ k : Fin 128, lidx_main_v24 (ix2 p q) k = ix2 p k := fun k => funext fun a => Fin.ext (by match a with | ⟨0, _⟩ => rfl | ⟨1, _⟩ => rfl)
  have hr : ∀ k : Fin 128, ridx_main_v24 (ix2 p q) k = ix2 k q := fun k => funext fun a => Fin.ext (by match a with | ⟨0, _⟩ => rfl | ⟨1, _⟩ => rfl)
  have hl' : ∀ k : Fin 128, lidx_main_v29 (ix2 p q) k = ix2 p k := fun k => funext fun a => Fin.ext (by match a with | ⟨0, _⟩ => rfl | ⟨1, _⟩ => rfl)
  have hr' : ∀ k : Fin 128, ridx_main_v29 (ix2 p q) k = ix2 k q := fun k => funext fun a => Fin.ext (by match a with | ⟨0, _⟩ => rfl | ⟨1, _⟩ => rfl)
  have hb : idx_main_v25 (idx_main_v26 (ix2 p q)) = ix1 q := funext fun a => Fin.ext (by match a with | ⟨0, _⟩ => rfl)
  have hd : ∀ k : Fin 128, val_main_v22 (F := Ideal) x0 x1 (ix2 p k)
      = val_main_v13 (F := Ideal) x0 x1 (ix2 p k) * Ideal.div (Ideal.ofBits .f32 0x3F800000#32) (val_main_v19 (F := Ideal) x1 (ix1 p)) := fun k => by
    rw [val_main_v22_apply, val_main_v21_apply, val_main_v20_apply]
    have hi : idx_main_v20 (idx_main_v21 (ix2 p k)) = ix1 p := funext fun a => Fin.ext (by match a with | ⟨0, _⟩ => rfl)
    rw [hi, deg1_apply]
    exact (Cert.Sage.mean_forms _ _).symm
  simp only [hl, hr, hl', hr', hb, hd]
  rfl

/-- The reference's second-layer logits are the specification's, on the neighbour sums of the hidden rows. -/
theorem logits2_eq (p : Fin 50000) (j : Fin 64) :
    val_main_v58 (F := Ideal) x0 x1 x2 x3 x4 x5 x6 x7 (ix2 p j)
      = Cert.Sage.logits (n := 50000) (d := 128) (h := 64) (val_main_v41 (F := Ideal) x0 x1 x2 x3 x4)
          (fun r => Ideal.div (Ideal.ofBits .f32 0x3F800000#32) (val_main_v47 (F := Ideal) x1 (ix1 r))) (val_main_v31 (F := Ideal) x0 x1 x2 x3 x4)
          (val_main_v51 (F := Ideal) x5) (val_main_v56 (F := Ideal) x7) (fun q => x6 (ix1 q)) p j := by
  rw [val_main_v58_apply, val_main_v55_apply, val_main_v52_apply, val_main_v57_apply, val_main_v54_apply, val_main_v53_apply]
  have hl : ∀ k : Fin 128, lidx_main_v52 (ix2 p j) k = ix2 p k := fun k => funext fun a => Fin.ext (by match a with | ⟨0, _⟩ => rfl | ⟨1, _⟩ => rfl)
  have hr : ∀ k : Fin 128, ridx_main_v52 (ix2 p j) k = ix2 k j := fun k => funext fun a => Fin.ext (by match a with | ⟨0, _⟩ => rfl | ⟨1, _⟩ => rfl)
  have hl' : ∀ k : Fin 128, lidx_main_v57 (ix2 p j) k = ix2 p k := fun k => funext fun a => Fin.ext (by match a with | ⟨0, _⟩ => rfl | ⟨1, _⟩ => rfl)
  have hr' : ∀ k : Fin 128, ridx_main_v57 (ix2 p j) k = ix2 k j := fun k => funext fun a => Fin.ext (by match a with | ⟨0, _⟩ => rfl | ⟨1, _⟩ => rfl)
  have hb : idx_main_v53 (idx_main_v54 (ix2 p j)) = ix1 j := funext fun a => Fin.ext (by match a with | ⟨0, _⟩ => rfl)
  have hd : ∀ k : Fin 128, val_main_v50 (F := Ideal) x0 x1 x2 x3 x4 (ix2 p k)
      = val_main_v41 (F := Ideal) x0 x1 x2 x3 x4 (ix2 p k) * Ideal.div (Ideal.ofBits .f32 0x3F800000#32) (val_main_v47 (F := Ideal) x1 (ix1 p)) := fun k => by
    rw [val_main_v50_apply, val_main_v49_apply, val_main_v48_apply]
    have hi : idx_main_v48 (idx_main_v49 (ix2 p k)) = ix1 p := funext fun a => Fin.ext (by match a with | ⟨0, _⟩ => rfl)
    rw [hi, deg2_apply]
    exact (Cert.Sage.mean_forms _ _).symm
  simp only [hl, hr, hl', hr', hb, hd]
  rfl

/-- The reference's row maximum of the logits is the specification's: the fold of `max` from minus infinity,
    clamped once more by minus infinity. -/
theorem rowMax_eq (p : Fin 50000) :
    val_main_call1_v2 (F := Ideal) x0 x1 x2 x3 x4 x5 x6 x7 (ix1 p)
      = Cert.Sage.rowMax (fun j : Fin 64 => val_main_v58 (F := Ideal) x0 x1 x2 x3 x4 x5 x6 x7 (ix2 p j)) := by
  rw [val_main_call1_v2_apply, val_main_call1_v1_apply, val_main_call1_cst_0_apply]
  unfold val_main_call1_v0
  rw [Host.reduce_eq_fold_single FloatOps.maximumf _ _ reducesTo_S50000x64_S50000_d1 (by decide) h_S_ (ix1 p)]
  have hf : (val_main_v58 (F := Ideal) x0 x1 x2 x3 x4 x5 x6 x7) ∘ (Shape.Reduces.lift (by decide : S50000x64.Reduces [1] S50000) (ix1 p))
      = fun j : Fin 64 => val_main_v58 (F := Ideal) x0 x1 x2 x3 x4 x5 x6 x7 (ix2 p j) := by
    funext k
    refine congrArg (val_main_v58 (F := Ideal) x0 x1 x2 x3 x4 x5 x6 x7) ?_
    funext c; apply Fin.ext
    match c with
    | ⟨0, _⟩ => rfl
    | ⟨1, _⟩ => rfl
  rw [hf]
  exact Cert.Sage.max_start_fold _ _

/-- The reference's result is the specification's output layer, on the neighbour sums of the hidden rows. -/
theorem output_eq :
    val_main_v59 (F := Ideal) x0 x1 x2 x3 x4 x5 x6 x7
      = Cert.Sage.output (n := 50000) (d := 128) (h := 64) (val_main_v41 (F := Ideal) x0 x1 x2 x3 x4)
          (fun r => Ideal.div (Ideal.ofBits .f32 0x3F800000#32) (val_main_v47 (F := Ideal) x1 (ix1 r))) (val_main_v31 (F := Ideal) x0 x1 x2 x3 x4)
          (val_main_v51 (F := Ideal) x5) (val_main_v56 (F := Ideal) x7) (fun q => x6 (ix1 q)) := by
  funext i
  obtain ⟨p, q, rfl⟩ : ∃ (p : Fin 50000) (q : Fin 64), i = ix2 p q := ⟨i 0, i 1, eq_ix2 i⟩
  have h5 : ∀ j : Fin 64, val_main_call1_v5 (F := Ideal) x0 x1 x2 x3 x4 x5 x6 x7 (ix2 p j)
      = val_main_v58 (F := Ideal) x0 x1 x2 x3 x4 x5 x6 x7 (ix2 p j) - Cert.Sage.rowMax (fun j : Fin 64 => val_main_v58 (F := Ideal) x0 x1 x2 x3 x4 x5 x6 x7 (ix2 p j)) := fun j => by
    rw [val_main_call1_v5_apply, val_main_call1_v4_apply, val_main_call1_v3_apply]
    have hi : idx_main_call1_v3 (idx_main_call1_v4 (ix2 p j)) = ix1 p := funext fun a => Fin.ext (by match a with | ⟨0, _⟩ => rfl)
    rw [hi, rowMax_eq]
    exact Ideal.subf_def _ _
  have h7 : val_main_call1_v7 (F := Ideal) x0 x1 x2 x3 x4 x5 x6 x7 (ix1 p)
      = ∑ j : Fin 64, Ideal.exp (val_main_v58 (F := Ideal) x0 x1 x2 x3 x4 x5 x6 x7 (ix2 p j) - Cert.Sage.rowMax (fun j : Fin 64 => val_main_v58 (F := Ideal) x0 x1 x2 x3 x4 x5 x6 x7 (ix2 p j))) := by
    rw [val_main_call1_v7_apply]
    show Ideal.ofBits .f32 0x00000000#32 + _ = _
    rw [Ideal.ofBits_zero_f32, zero_add]
    refine Finset.sum_congr rfl fun j _ => ?_
    have hi : idx_main_call1_v7 (ix1 p) j = ix2 p j := funext fun a => Fin.ext (by match a with | ⟨0, _⟩ => rfl | ⟨1, _⟩ => rfl)
    rw [hi, val_main_call1_v6_apply, h5]
    exact Ideal.hostUnary_exp_def _
  rw [val_main_v59_apply, val_main_call1_v10_apply, val_main_call1_v9_apply, val_main_call1_v8_apply]
  have hi8 : idx_main_call1_v8 (idx_main_call1_v10 (ix2 p q)) = ix1 p := funext fun a => Fin.ext (by match a with | ⟨0, _⟩ => rfl)
  rw [hi8, h7, h5, Ideal.subf_def, Ideal.hostUnary_log_def]
  show _ = Cert.Sage.lsm (fun j => Cert.Sage.logits _ _ _ _ _ _ p j) q
  unfold Cert.Sage.lsm
  simp only [logits2_eq]

end Cert.ReferenceIdeal.RefSage

end
-- ==== Proof.Bridge.lean ====
/-
  The kernel's network and the reference's last stage are one function of the eight arguments.

  Both are the specification's output layer over its hidden layer.  What remains is that they are taken on the same
  operands: the neighbour sums are the same gather and scatter-add of the same rows; the reciprocal clamped
  in-degree, which the kernel keeps as a column, read at a node is one over that node's clamped in-degree (the
  reference clamps the same scatter-add of ones, twice); the kernel's bias row, a cast of the bias vector, read at
  a column is the bias entry; and the transposed weights are the same transposes.
-/
import proofs.«113475_j29841432773038_2_alg».proof.Proof.KValue
import proofs.«113475_j29841432773038_2_alg».proof.Proof.RefSage
import Idealize.ShloMosaic.Lib.ValueLayout

set_option maxRecDepth 16384

noncomputable section

namespace Cert.Bridge

open Idealize.ShloMosaic Idealize.ShloMosaic.ValueIdx Cert.LibRowForms
open Cert.KernelIdeal (S50000x128 S2x600000 S128x128 S128 S64x128 S64 S50000x64)
open Cert.KernelIdeal.KValue Cert.KernelIdeal.KHost
open Cert.ReferenceIdeal.ReadP

variable (x0 : S50000x128.Idx → EReal) (x1 : IVec S2x600000 32) (x2 : S128x128.Idx → EReal) (x3 : S128.Idx → EReal)
  (x4 : S128x128.Idx → EReal) (x5 : S64x128.Idx → EReal) (x6 : S64.Idx → EReal) (x7 : S64x128.Idx → EReal)

/-- The clamped in-degrees are the reference's, which it computes once per layer from the same edges. -/
theorem deg1 : degMax x1 = val_main_v19 (F := Ideal) x1 := rfl
theorem deg2 : degMax x1 = val_main_v47 (F := Ideal) x1 := rfl
/-- The kernel's reciprocal column at node `r` is one over the first layer's clamped in-degree of the reference, -/
theorem inv1 (r : Fin 50000) :
    invCol x1 (ix2 r (0 : Fin 1)) = Ideal.div (Ideal.ofBits .f32 0x3F800000#32) (val_main_v19 (F := Ideal) x1 (ix1 r)) := by
  rw [invCol_apply, deg1]
/-- and over the second layer's. -/
theorem inv2 (r : Fin 50000) :
    invCol x1 (ix2 r (0 : Fin 1)) = Ideal.div (Ideal.ofBits .f32 0x3F800000#32) (val_main_v47 (F := Ideal) x1 (ix1 r)) := by
  rw [invCol_apply, deg2]
/-- The neighbour sums of the features are the reference's. -/
theorem agg1 : agg x1 x0 = val_main_v13 (F := Ideal) x0 x1 := rfl
/-- The neighbour sums of any hidden rows are the reference's second gather and scatter-add of those rows. -/
theorem agg2 : agg x1 (val_main_v31 (F := Ideal) x0 x1 x2 x3 x4) = val_main_v41 (F := Ideal) x0 x1 x2 x3 x4 := rfl
/-- The first bias row at a column is the bias entry. -/
theorem bias1 (h : S128.ShapeCasts Cert.KernelIdeal.S1x128) (q : Fin 128) :
    shapeCast Cert.KernelIdeal.S1x128 x3 h (ix2 (0 : Fin 1) q) = x3 (ix1 q) :=
  shapeCast_a_1a_apply x3 h 0 q
/-- The second bias row at a column is the bias entry. -/
theorem bias2 (h : S64.ShapeCasts Cert.KernelIdeal.S1x64) (q : Fin 64) :
    shapeCast Cert.KernelIdeal.S1x64 x6 h (ix2 (0 : Fin 1) q) = x6 (ix1 q) :=
  shapeCast_a_1a_apply x6 h 0 q

/-- The kernel's hidden layer is the reference's. -/
theorem hid_eq : hid x0 x1 x2 x3 x4 = val_main_v31 (F := Ideal) x0 x1 x2 x3 x4 := by
  rw [Cert.ReferenceIdeal.RefSage.hidden_eq]
  unfold hid
  simp only [inv1, bias1, agg1]
  rfl

/-- The kernel's network is the reference's last stage. -/
theorem net_eq : net x0 x1 x2 x3 x4 x5 x6 x7 = val_main_v59 (F := Ideal) x0 x1 x2 x3 x4 x5 x6 x7 := by
  rw [Cert.ReferenceIdeal.RefSage.output_eq]
  unfold net
  rw [hid_eq, agg2]
  simp only [inv2, bias2]
  rfl

end Cert.Bridge

end
-- ==== Proof.lean ====
/-
  A two-layer mean-aggregating graph network, computed by two tiled launches among host gathers and scatter-adds,
  against the same network written with plain array operations; both followed by a row-wise log-softmax.

  On the extended reals the two programs compute one function.  Every change of float format is the identity; the
  matrix unit's product into a zero accumulator and the host's general product are the same sums; the lane
  reductions and the host's reductions are the same folds; and the one arithmetic difference — the kernel scales
  each row of neighbour sums by the reciprocal of the in-degree clamped below by one, where the reference divides
  by the clamped in-degree — is no difference, because dividing by a nonzero extended real is multiplying by its
  inverse and a number clamped below by one is not zero.  No finiteness of the inputs is needed for that, and the
  gathers and scatter-adds are the same on both sides, so they are never opened.

  The modules: `Sage` states the layers entry by entry and proves the two facts above; `KPay` reads the two launch
  bodies at an index; `KReg0` and `KReg1` pass from the blocks a launch writes back to the array it leaves;
  `KHost` reads the host operations around the launches; `KRun` is the kernel's run with its result named and
  `KValue` the result as a function of the arguments; `RefRun` and `RefRead` are the reference's run and its stages,
  `RefEval` reads the run's result as the last stage, `RefSage` shows the stages are the specification's layers;
  `Bridge` joins the two sides.  The idealization of the kernel rewrote nothing, so nothing is owed for it.
-/
import proofs.«113475_j29841432773038_2_alg».proof.Defs
import proofs.«113475_j29841432773038_2_alg».proof.Proof.Gen.Kernel
import proofs.«113475_j29841432773038_2_alg».proof.Proof.Gen.Kernel.Frame
import proofs.«113475_j29841432773038_2_alg».proof.Proof.Gen.KernelIdeal
import proofs.«113475_j29841432773038_2_alg».proof.Proof.Gen.KernelIdeal.Frame
import proofs.«113475_j29841432773038_2_alg».proof.Proof.Gen.ReferenceIdeal
import proofs.«113475_j29841432773038_2_alg».proof.Proof.Gen.Pre_finite_inputs
import proofs.«113475_j29841432773038_2_alg».proof.Proof.KValue
import proofs.«113475_j29841432773038_2_alg».proof.Proof.RefRun
import proofs.«113475_j29841432773038_2_alg».proof.Proof.RefEval
import proofs.«113475_j29841432773038_2_alg».proof.Proof.Bridge
import Idealize.ShloMosaic.Adequacy
import Idealize.ShloMosaic.Init

noncomputable section

namespace Cert.Proof

open Idealize.ShloMosaic Idealize.SL.Sem

/-- The kernel as printed runs and leaves its arguments alone. -/
theorem frame_k : Cert.frame_Kernel := fun m ρ _ => Cert.Kernel.Gen.frame m ρ
/-- So does the idealized kernel. -/
theorem frame_ki : Cert.frame_KernelIdeal := fun m ρ _ => Cert.KernelIdeal.Gen.frame m ρ
/-- So does the idealized reference: its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- From memories that agree on the arguments both idealized programs end with the network's output of the
    arguments in their result buffers: the kernel by its run read through the two launches, the reference by its
    run read as its last stage, and the two are one function. -/
theorem algebraic : Cert.algebraic_KernelIdeal_ReferenceIdeal := by
  intro m ρ m' ρ' _ hagree
  refine ⟨fun c => Cert.KernelIdeal.KValue.net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    Cert.KernelIdeal.KValue.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.RefEval.result m' c, (hagree c).1, (hagree c).2.1, (hagree c).2.2.1, (hagree c).2.2.2.1,
    (hagree c).2.2.2.2.1, (hagree c).2.2.2.2.2.1, (hagree c).2.2.2.2.2.2.1, (hagree c).2.2.2.2.2.2.2]
  exact (Cert.Bridge.net_eq _ _ _ _ _ _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
